-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S2x1x1 : Shape := ⟨3, ![2, 1, 1]⟩
abbrev S2048x1024 : Shape := ⟨2, ![2048, 1024]⟩
abbrev S512x1024 : Shape := ⟨2, ![512, 1024]⟩
abbrev S1x1x1 : Shape := ⟨3, ![1, 1, 1]⟩
abbrev S1x1 : Shape := ⟨2, ![1, 1]⟩
abbrev S2048x512 : Shape := ⟨2, ![2048, 512]⟩
abbrev S2048x1 : Shape := ⟨2, ![2048, 1]⟩
abbrev S1x512 : Shape := ⟨2, ![1, 512]⟩
abbrev S2048 : Shape := ⟨1, ![2048]⟩
abbrev S1 : Shape := ⟨1, ![1]⟩

abbrev nBuf : Space → Nat
  | .hbm => 45
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096, .f32⟩
  | .hbm, ⟨22, _⟩ => ⟨S4096, .f32⟩
  | .hbm, ⟨23, _⟩ => ⟨S4096, .f32⟩
  | .hbm, ⟨24, _⟩ => ⟨S4096, .f32⟩
  | .hbm, ⟨25, _⟩ => ⟨S_, .f32⟩
  | .hbm, ⟨26, _⟩ => ⟨S4096, .f32⟩
  | .hbm, ⟨27, _⟩ => ⟨S4096, .f32⟩
  | .hbm, ⟨28, _⟩ => ⟨S4096, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S4096x1024, .bf16⟩
  | .hbm, ⟨36, _⟩ => ⟨S4096x1024, .f32⟩
  | .hbm, ⟨37, _⟩ => ⟨S4096x1024, .f32⟩
  | .hbm, ⟨38, _⟩ => ⟨S4096x1024, .bf16⟩
  | .hbm, ⟨39, _⟩ => ⟨S2x1x1, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .local _ .vmem, ⟨0, _⟩ => ⟨S2048x1024, .bf16⟩
  | .local _ .vmem, ⟨1, _⟩ => ⟨S512x1024, .bf16⟩
  | .local _ .vmem, ⟨2, _⟩ => ⟨S512x1024, .bf16⟩
  | .local _ .vmem, ⟨3, _⟩ => ⟨S1x1x1, .f32⟩
  | .local _ .vmem, ⟨4, _⟩ => ⟨S1x1x1, .f32⟩
  | .local _ .vmem, ⟨5, _⟩ => ⟨S1x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_call1_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_v26 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v35 : BitVec 1 := Scalar.cmpi .eq arg1 c7_i32
  let v36 : BitVec 32 := Scalar.extui v35
  let c0_i32_13 : BitVec 32 := 0#32
  let v37 : BitVec 1 := Scalar.cmpi .ne v36 c0_i32_13
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  shapeCasts_S4096x1_S4096 : S4096x1.ShapeCasts S4096
  bcast_S_S4096 : S_.BroadcastsInDim S4096 (![] : Fin 0 → Fin S4096.rank)
  reducesTo_S4096_S_d0 : S4096.ReducesTo [0] S_
  bcast_S4096x1_S4096x1024_0_1 : S4096x1.BroadcastsInDim S4096x1024 (![0, 1] : Fin 2 → Fin S4096x1024.rank)
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  iota_S2048x1_d0_w32 : S2048x1.Iotas .tc 32 [0]
  iota_S1x512_d1_w32 : S1x512.Iotas .tc 32 [1]
  broadcasts_S2048x1_S2048x512 : S2048x1.Broadcasts S2048x512
  broadcasts_S1x512_S2048x512 : S1x512.Broadcasts S2048x512
  reduces_S2048x512_S2048 : S2048x512.Reduces [1] S2048
  shapeCasts_S2048_S2048x1 : S2048.ShapeCasts S2048x1
  reduces_S2048x1_S1 : S2048x1.Reduces [0] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S2x1x1_S_d0_1_2 : S2x1x1.ReducesTo [0, 1, 2] S_
  dot_S2048x1024_S512x1024_S2048x512_1_1_0_0_n_n_wf : DotDims.WF S2048x1024 S512x1024 S2048x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S4096x1024.size a
  hwx0_0 : ∀ i : grid0.Coords, EltTy.bits .bf16 = 32 ∨ (Rect.block (s := S4096x1024) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .bf16 = 32 ∨ (Rect.block (s := S4096x1024) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

def dot_S2048x1024_S512x1024_S2048x512_1_1_0_0_n_n : DotDims S2048x1024 S512x1024 S2048x512 where
  lhsContracting := [1]
  rhsContracting := [1]
  lhsNonContracting := [0]
  rhsNonContracting := [0]
  lhsBatch := []
  rhsBatch := []
  wf := dot_S2048x1024_S512x1024_S2048x512_1_1_0_0_n_n_wf

abbrev win0_0 : Pipeline.Window sig grid0 :=
  Pipeline.Window.ofSpec (Memref.whole main_v19) S2048x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v22) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x1024 : Shape := ⟨2, ![4096, 1024]⟩
abbrev S_ : Shape := ⟨0, ![]⟩
abbrev S4096 : Shape := ⟨1, ![4096]⟩
abbrev S1024x4096 : Shape := ⟨2, ![1024, 4096]⟩
abbrev S4096x4096 : Shape := ⟨2, ![4096, 4096]⟩
abbrev S4096x1 : Shape := ⟨2, ![4096, 1]⟩
abbrev S1x4096 : Shape := ⟨2, ![1, 4096]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096, .f32⟩
  | .hbm, ⟨20, _⟩ => ⟨S4096, .f32⟩
  | .hbm, ⟨21, _⟩ => ⟨S1024x4096, .f32⟩
  | .hbm, ⟨22, _⟩ => ⟨S4096x4096, .f32⟩
  | .hbm, ⟨23, _⟩ => ⟨S4096x1, .f32⟩
  | .hbm, ⟨24, _⟩ => ⟨S1x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S4096x4096, .i32⟩
  | .hbm, ⟨30, _⟩ => ⟨S4096x4096, .i32⟩
  | .hbm, ⟨31, _⟩ => ⟨S_, .i32⟩
  | .hbm, ⟨32, _⟩ => ⟨S4096x4096, .i32⟩
  | .hbm, ⟨33, _⟩ => ⟨S4096x4096, .i32⟩
  | .hbm, ⟨34, _⟩ => ⟨S4096x4096, .i1⟩
  | .hbm, ⟨35, _⟩ => ⟨S4096x4096, .f32⟩
  | .hbm, ⟨36, _⟩ => ⟨S_, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S4096x4096, .f32⟩
  | .hbm, ⟨50, _⟩ => ⟨S4096x4096, .f32⟩
  | .hbm, ⟨51, _⟩ => ⟨S_, .f32⟩
  | .hbm, ⟨52, _⟩ => ⟨S4096x4096, .f32⟩
  | .hbm, ⟨53, _⟩ => ⟨S4096x4096, .f32⟩
  | .hbm, ⟨54, _⟩ => ⟨S4096x4096, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_cst_9 : Ref sig .tc := ⟨.hbm, 57, rfl⟩
abbrev main_v38 : Ref sig .tc := ⟨.hbm, 58, rfl⟩
abbrev main_v39 : Ref sig .tc := ⟨.hbm, 59, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  bcast_S_S4096 : S_.BroadcastsInDim S4096 (![] : Fin 0 → Fin S4096.rank)
  transposes_S4096x1024_S1024x4096_1_0 : S4096x1024.Transposes [1, 0] S1024x4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096_S_d0 : S4096.ReducesTo [0] S_
  reducesTo_S4096x4096_S_d0_1 : S4096x4096.ReducesTo [0, 1] S_
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.KPieces.lean ====
/-
  What one run of the kernel body leaves behind, case by case, as values.

  The body keeps a one-entry accumulator across the grid's inner axis. At the first inner point it stores zero into the
  accumulator and then adds the tile's sum to it; at the others it adds the tile's sum to what the point before left; at
  the last inner point it also copies the accumulator into the output block. Each statement below reads the stores the
  body's run found back as one term over the body's loads: the accumulator's new contents are the accumulate-payload of
  the two input blocks and the old accumulator (zero at the first inner point), and the output block is the re-shaped
  accumulator.
-/
import proofs.«153321_j82892868813397_2_alg».proof.Proof.Gen.KernelIdeal.Frame
import Idealize.ShloMosaic.Lib.Pipeline.Value
import Idealize.ShloMosaic.Lib.StableHlo.Run
import Idealize.ShloMosaic.Lib.Tactic
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.Pieces
open Cert.KernelIdeal Cert.KernelIdeal.Gen

variable {F : FTy → Type} [FloatOps F]

/-- The zero offsets of a rank-2 and a rank-3 whole-buffer access. -/
theorem hz2 : (![0, 0] : Fin 2 → Nat) = fun _ => 0 := funext fun a => by fin_cases a <;> rfl
theorem hz3 : (![0, 0, 0] : Fin 3 → Nat) = fun _ => 0 := funext fun a => by fin_cases a <;> rfl

/-- A middle inner point: the accumulator becomes the accumulate-payload of the blocks and its old contents. -/
theorem scratch_B (c : Dev nD) (i : grid0.Coords) (a2 : Memref sig .tc .vmem S2048x1024 .bf16) (h2 : a2.IsWhole)
    (a3 : Memref sig .tc .vmem S512x1024 .bf16) (h3 : a3.IsWhole) (a4 : Memref sig .tc .vmem S1x1x1 .f32) (h4 : a4.IsWhole)
    (a5 : Memref sig .tc .vmem S1x1 .f32) (h5 : a5.IsWhole) (hc0 : ¬cond0_0 i) (hc1 : ¬cond0_1 i)
    (x0 : Vec F S2048x1024 .bf16) (x1 : Vec F S512x1024 .bf16) (xs0 : Vec F S1x1 .f32) :
    sout0_B_0 c i a2 h2 a3 h3 a4 h4 a5 h5 hc0 hc1 x0 x1 xs0 = k0_pay3 i x0 x1 xs0 := by
  unfold sout0_B_0
  rw [View.read_writes_eq_canon _ _ _ (scover0_B_0 c i a2 h2 a3 h3 a4 h4 a5 h5 hc0 hc1 x0 x1 xs0)]
  unfold kernelRun0_B
  dsimp only
  rw [View.canon_unit_zero hz2]
  simp only [View.readAt_eq_ld, h2.read_unread, h3.read_unread, h5.read_unread, View.ld_unit_zero (S := S2048x1024) hz2,
    View.ld_unit_zero (S := S512x1024) hz2, View.ld_unit_zero (S := S1x1) hz2]

/-- The last inner point: the accumulator is updated the same way. -/
theorem scratch_C (c : Dev nD) (i : grid0.Coords) (a2 : Memref sig .tc .vmem S2048x1024 .bf16) (h2 : a2.IsWhole)
    (a3 : Memref sig .tc .vmem S512x1024 .bf16) (h3 : a3.IsWhole) (a4 : Memref sig .tc .vmem S1x1x1 .f32) (h4 : a4.IsWhole)
    (a5 : Memref sig .tc .vmem S1x1 .f32) (h5 : a5.IsWhole) (hc0 : ¬cond0_0 i) (hc1 : cond0_1 i)
    (x0 : Vec F S2048x1024 .bf16) (x1 : Vec F S512x1024 .bf16) (xs0 : Vec F S1x1 .f32) :
    sout0_C_0 c i a2 h2 a3 h3 a4 h4 a5 h5 hc0 hc1 x0 x1 xs0 = k0_pay3 i x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz2]
  simp only [View.readAt_eq_ld, h2.read_unread, h3.read_unread, h5.read_unread, View.ld_unit_zero (S := S2048x1024) hz2,
    View.ld_unit_zero (S := S512x1024) hz2, View.ld_unit_zero (S := S1x1) hz2]

/-- The first inner point: the zero block is stored first and read back, so the old contents are the zero payload. -/
theorem scratch_A (c : Dev nD) (i : grid0.Coords) (a2 : Memref sig .tc .vmem S2048x1024 .bf16) (h2 : a2.IsWhole)
    (a3 : Memref sig .tc .vmem S512x1024 .bf16) (h3 : a3.IsWhole) (a4 : Memref sig .tc .vmem S1x1x1 .f32) (h4 : a4.IsWhole)
    (a5 : Memref sig .tc .vmem S1x1 .f32) (h5 : a5.IsWhole) (hc0 : cond0_0 i) (hc1 : ¬cond0_1 i)
    (x0 : Vec F S2048x1024 .bf16) (x1 : Vec F S512x1024 .bf16) :
    sout0_A_0 c i a2 h2 a3 h3 a4 h4 a5 h5 hc0 hc1 x0 x1 = k0_pay3 i x0 x1 (k0_pay2 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x1) hz2, View.readCov_unit_zero (S := S1x1) _ hz2]
  simp only [View.readAt_eq_ld, h2.read_unread, h3.read_unread, View.ld_unit_zero (S := S2048x1024) hz2,
    View.ld_unit_zero (S := S512x1024) hz2]

/-- The last inner point: the output block is the accumulator just written, re-shaped to the block's rank. -/
theorem out_C (c : Dev nD) (i : grid0.Coords) (a2 : Memref sig .tc .vmem S2048x1024 .bf16) (h2 : a2.IsWhole)
    (a3 : Memref sig .tc .vmem S512x1024 .bf16) (h3 : a3.IsWhole) (a4 : Memref sig .tc .vmem S1x1x1 .f32) (h4 : a4.IsWhole)
    (a5 : Memref sig .tc .vmem S1x1 .f32) (h5 : a5.IsWhole) (hc0 : ¬cond0_0 i) (hc1 : cond0_1 i)
    (x0 : Vec F S2048x1024 .bf16) (x1 : Vec F S512x1024 .bf16) (xs0 : Vec F S1x1 .f32) :
    out0_C_2 c i a2 h2 a3 h3 a4 h4 a5 h5 hc0 hc1 x0 x1 xs0 = k0_pay1 (k0_pay3 i x0 x1 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz3, View.readCov_unit_zero (S := S1x1) _ hz2]
  simp only [View.readAt_eq_ld, h2.read_unread, h3.read_unread, h5.read_unread, View.ld_unit_zero (S := S2048x1024) hz2,
    View.ld_unit_zero (S := S512x1024) hz2, View.ld_unit_zero (S := S1x1) hz2]

end Cert.KernelIdeal.Pieces

end
-- ==== Proof.LibNormalize.lean ====
/-
  Extended-real lemmas for programs that normalize by a clamped Euclidean norm, and a tiling of finite sums.

  * the coercion of a finite real sum is the sum of the coercions (coe_sum);
  * dividing each factor of a sum of products by a nonzero real, or the sum by the product of the two divisors, is the
    same extended real when the factors are real (normalize_comm) — distributivity, which is why the factors must be real;
  * the larger of the square root of a sum of squares of reals (taken from zero) and a positive real is a positive real
    (norm_pos_real);
  * a sum over Fin (A * B) is the sum over A tiles of B consecutive indices (sum_fin_tile);
  * an extended real times (1 - 1) is zero and times (1 - 0) is itself (mask_diag, mask_off).
-/
import Idealize.ShloMosaic.PureOps.Ideal
import Idealize.ShloMosaic.PureOps.Ideal.Laws
import Mathlib.Algebra.BigOperators.Fin

noncomputable section

namespace Cert.LibNormalize

open Idealize.ShloMosaic
open scoped BigOperators

/-- The coercion of a finite sum of reals is the sum of the coercions. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Dividing each factor by a nonzero real before the sum of products, or the sum of products by the product of the
    two divisors afterwards, is the same extended real when every factor is real. -/
theorem normalize_comm {ι : Type*} (s : Finset ι) (a b : ι → ℝ) {cr ds : ℝ} (hc : cr ≠ 0) (hd : ds ≠ 0) :
    ∑ k ∈ s, Ideal.div (a k : EReal) (cr : EReal) * Ideal.div (b k : EReal) (ds : EReal)
      = Ideal.div (∑ k ∈ s, (a k : EReal) * (b k : EReal)) ((cr : EReal) * (ds : EReal)) := by
  have hcd : cr * ds ≠ 0 := mul_ne_zero hc hd
  rw [← EReal.coe_mul cr ds, Ideal.div_coe hcd]
  simp only [Ideal.div_coe hc, Ideal.div_coe hd, ← EReal.coe_mul]
  rw [← coe_sum, ← coe_sum, ← EReal.coe_mul]
  congr 1
  rw [Finset.sum_mul]
  refine Finset.sum_congr rfl fun k _ => ?_
  field_simp

/-- The clamped norm of a row of reals — the larger of the square root of the sum of squares (taken from zero) and a
    positive real clamp — is a positive real. -/
theorem norm_pos_real {ι : Type*} (s : Finset ι) (a : ι → ℝ) {e : ℝ} (he : 0 < e) :
    ∃ cr : ℝ, 0 < cr ∧ max (Ideal.sqrt (0 + ∑ k ∈ s, (a k : EReal) * (a k : EReal))) (e : EReal) = (cr : EReal) := by
  refine ⟨max (Real.sqrt (∑ k ∈ s, a k * a k)) e, lt_max_of_lt_right he, ?_⟩
  have h0 : (0 : ℝ) ≤ ∑ k ∈ s, a k * a k := Finset.sum_nonneg fun k _ => mul_self_nonneg _
  simp only [← EReal.coe_mul]
  rw [← coe_sum, zero_add, Ideal.sqrt_coe, if_neg (not_lt.mpr h0)]
  exact (EReal.coe_strictMono.monotone.map_max).symm

/-- A sum over `Fin (A * B)` is the sum over `A` consecutive tiles of length `B`. -/
theorem sum_fin_tile {M : Type*} [AddCommMonoid M] (A B : ℕ) (h : Fin (A * B) → M) :
    ∑ r, h r = ∑ i : Fin A, ∑ p : Fin B, h (finProdFinEquiv (i, p)) := by
  rw [← Equiv.sum_comp finProdFinEquiv h, Fintype.sum_prod_type]

/-- The masked entry: an entry times one minus the indicator of the diagonal is zero on the diagonal and the entry off
    it, whatever extended real the entry is. -/
theorem mask_diag (x : EReal) : x * ((1 : EReal) - ((1 : ℝ) : EReal)) = 0 := by
  rw [EReal.coe_one, show (1 : EReal) - 1 = 0 from by rw [← EReal.coe_one, ← EReal.coe_sub]; simp, mul_zero]

theorem mask_off (x : EReal) : x * ((1 : EReal) - ((0 : ℝ) : EReal)) = x := by
  rw [EReal.coe_zero, sub_zero, mul_one]

end Cert.LibNormalize

end
-- ==== Proof.Spec.lean ====
/-
  The two words both programs' entries are built from: the indicator of the diagonal, and one pair's contribution to
  the negative-pair loss (the similarity with the diagonal selected to zero, less the margin one half, clipped below at
  zero, squared).
-/
import proofs.«153321_j82892868813397_2_alg».proof.Proof.LibNormalize

noncomputable section

namespace Cert.Spec

open Idealize.ShloMosaic Cert.LibNormalize
open scoped BigOperators

/-- The indicator word of the diagonal: one where the row index equals the column index. -/
def diagBit (r s : ℕ) : BitVec 1 := BitVec.ofBool (decide (r = s))

/-- One entry's contribution to the loss: the similarity with the diagonal zeroed, less the margin, clipped below at
    zero, squared. The literals are the margin one half and zero, kept as their words. -/
def entry (b : BitVec 1) (x : EReal) : EReal :=
  max (Scalar.select b (Ideal.ofBits .f32 0x00000000#32) x - Ideal.ofBits .f32 0x3F000000#32) (Ideal.ofBits .f32 0x00000000#32)
    * max (Scalar.select b (Ideal.ofBits .f32 0x00000000#32) x - Ideal.ofBits .f32 0x3F000000#32) (Ideal.ofBits .f32 0x00000000#32)

/-- Two 32-bit words of small naturals are equal exactly when the naturals are. -/
theorem cmpi_eq_ofNat (x y : ℕ) (hx : x < 4294967296) (hy : y < 4294967296) :
    IntOp.cmpi .eq (BitVec.ofNat 32 x) (BitVec.ofNat 32 y) = diagBit x y := by
  unfold IntOp.cmpi diagBit
  congr 1
  by_cases h : x = y
  · subst h; simp
  · rw [decide_eq_false h]
    rw [beq_eq_false_iff_ne]
    intro hh
    apply h
    have := congrArg BitVec.toNat hh
    simp only [BitVec.toNat_ofNat] at this
    omega

end Cert.Spec

end
-- ==== Proof.LibContract1.lean ====
/-
  A matrix product whose dimension numbers contract ONE axis, read at a result index at the ideal values, for any
  dimension record: the kernel's `tpu.matmul` into the zero accumulator and the host's `dot_general` are both the sum,
  over that axis's coordinate `k : Fin n`, of the operands' products, each operand read at an index the caller NAMES
  (`L k`, `R k`) and proves to be where the record sends the result index and `k`. The caller's two obligations are
  per-axis facts about `DotDims.lhsIdx` / `rhsIdx` (`DotDims.lhsIdx_val_of_single` on the contracted axis, two `dif`
  rewrites on a kept one); everything else — opening the product, re-indexing the contraction shape's one-axis index by
  `Fin n` — is done here once.
-/
import Idealize.ShloMosaic.PureOps.Ideal.Laws
import Idealize.ShloMosaic.Lib.ValueIdx

noncomputable section

namespace Cert.LibContract1

open Idealize.ShloMosaic Idealize.ShloMosaic.ValueIdx

/-- A `tpu.matmul` into the f32 zero splat, one contracted axis of extent `n`: at `j` it is `∑ k, lhs (L k) · rhs (R k)`. -/
theorem matmul_zero_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    matmul d none lhs rhs (constant (F := Ideal) so .f32 0x00000000#32) j = ∑ k : Fin n, lhs (L k) * rhs (R k) := by
  simp only [matmul]
  rw [Ideal.matmul_constant_zero_apply, ← Equiv.sum_comp (contrEquiv1 d n hr hs).symm]
  exact Finset.sum_congr rfl fun k _ => by rw [hL k, hR k]

/-- The host's `dot_general`, one contracted axis of extent `n`: at `j` it is `∑ k, lhs (L k) · rhs (R k)`. -/
theorem dotGeneral_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    Host.dotGeneral d none lhs rhs j = ∑ k : Fin n, lhs (L k) * rhs (R k) := by
  simp only [Host.dotGeneral]
  rw [Ideal.dotGeneral_apply, ← Equiv.sum_comp (contrEquiv1 d n hr hs).symm]
  exact Finset.sum_congr rfl fun k _ => by rw [hL k, hR k]

end Cert.LibContract1

end
-- ==== Proof.LibIdx.lean ====
/-
  Sums over a rank-1 index set by its one coordinate, and the column forms of a shape cast that a sum with
  `keepdims` meets: a vector [a] viewed as a column [a, 1], and a one-element vector [1] viewed as [1, 1].
-/
import Idealize.ShloMosaic.Lib.Pipeline.Value
import Idealize.ShloMosaic.Lib.ValueIdx

noncomputable section

namespace Cert.LibIdx

open Idealize.ShloMosaic Idealize.ShloMosaic.ValueIdx
open scoped BigOperators

/-- A rank-1 index is its coordinate. -/
def idxEquiv1 {n : Nat} : (⟨1, ![n]⟩ : Shape).Idx ≃ Fin n where
  toFun i := i 0
  invFun a := ix1 a
  left_inv i := (eq_ix1 i).symm
  right_inv _ := rfl

/-- So a sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- An `[a]` vector cast to the column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Every index of a [1, 1] array is (0, 0). -/
theorem idx11_eq (y : (⟨2, ![1, 1]⟩ : Shape).Idx) : y = ix2 (0 : Fin 1) (0 : Fin 1) := by
  funext a
  match a with
  | ⟨0, _⟩ => exact Subsingleton.elim (α := Fin 1) _ _
  | ⟨1, _⟩ => exact Subsingleton.elim (α := Fin 1) _ _

end Cert.LibIdx

end
-- ==== Proof.LibBroadcast2.lean ====
/-
  Two rank-2 broadcasts read at an entry: a column [a, 1] spread over b lanes (what a row reduction kept with its unit
  axis becomes when it is spread back over the row), and a one-entry array [1, 1] spread over [a, b].
-/
import Idealize.ShloMosaic.Lib.Pipeline.Value
import Idealize.ShloMosaic.Lib.ValueIdx

noncomputable section

namespace Cert.LibBroadcast2

open Idealize.ShloMosaic Idealize.ShloMosaic.ValueIdx

/-- A column [a, 1] spread over b lanes reads, at (p, c), the column at (p, 0). -/
theorem bcast_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A [1, 1] array spread over [a, b] reads its one entry everywhere. -/
theorem bcast_11_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end Cert.LibBroadcast2

end
-- ==== Proof.KTile.lean ====
/-
  The kernel body's arithmetic at its one output entry.

  One run of the body takes a block of 2048 rows of the first normalized matrix and a block of 512 rows of the second,
  forms the 2048 by 512 tile of their inner products, zeroes the entries on the diagonal of the WHOLE similarity matrix
  (the tile's row and column offsets are the grid coordinates times the block heights), subtracts the margin, clips at
  zero, squares, sums along each row and then down the rows, and adds the total to the one-entry accumulator. At the
  ideal values this is: old accumulator plus the double sum over the tile of each entry's contribution.
-/
import proofs.«153321_j82892868813397_2_alg».proof.Proof.Gen.KernelIdeal.Skeleton
import proofs.«153321_j82892868813397_2_alg».proof.Proof.Spec
import proofs.«153321_j82892868813397_2_alg».proof.Proof.LibContract1
import proofs.«153321_j82892868813397_2_alg».proof.Proof.LibIdx
import proofs.«153321_j82892868813397_2_alg».proof.Proof.LibBroadcast2
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem

namespace Cert.KernelIdeal.Tile
open Cert.KernelIdeal Cert.KernelIdeal.Gen

open Idealize.ShloMosaic.ValueIdx
open scoped BigOperators

/-- The tile's diagonal mask as the body computes it: the block's first row index plus the row inside the block, against
    the block's first column index plus the column inside the block, compared word by word. -/
def bits (i : grid0.Coords) : IVec S2048x512 1 :=
  cmpi .eq
    (broadcastTo S2048x512 (addi (broadcast S2048x1 (Scalar.muli (BitVec.ofNat 32 (i 0).val) 2048#32)) (iota .tc S2048x1 32 [0] Facts₀.iota_S2048x1_d0_w32)) Facts₀.broadcasts_S2048x1_S2048x512)
    (broadcastTo S2048x512 (addi (broadcast S1x512 (Scalar.muli (BitVec.ofNat 32 (i 1).val) 512#32)) (iota .tc S1x512 32 [1] Facts₀.iota_S1x512_d1_w32)) Facts₀.broadcasts_S1x512_S2048x512)

/-- The tile of similarities: the row block times the transposed column block, from zero. -/
def dots (x0 : FVec Ideal S2048x1024 .bf16) (x1 : FVec Ideal S512x1024 .bf16) : FVec Ideal S2048x512 .f32 :=
  matmul dot_S2048x1024_S512x1024_S2048x512_1_1_0_0_n_n none x0 x1 (constant (F := Ideal) S2048x512 .f32 0x00000000#32)

/-- The mask at (p, q) is the diagonal indicator of the global row and column indices: no word wraps, the indices
    being below 4096. -/
theorem bits_apply (i : grid0.Coords) (p : Fin 2048) (q : Fin 512) :
    bits i (ix2 p q) = Cert.Spec.diagBit ((i 0).val * 2048 + p.val) ((i 1).val * 512 + q.val) := by
  have h0 : (i 0).val < 2 := (i 0).isLt
  have h1 : (i 1).val < 8 := (i 1).isLt
  have hp := p.isLt
  have hq := q.isLt
  unfold bits
  show IntOp.cmpi .eq (broadcastTo S2048x512 _ Facts₀.broadcasts_S2048x1_S2048x512 (ix2 p q)) (broadcastTo S2048x512 _ Facts₀.broadcasts_S1x512_S2048x512 (ix2 p q)) = _
  rw [Cert.LibBroadcast2.bcast_col_apply, broadcastTo_1b_ab_apply]
  show IntOp.cmpi .eq (IntOp.addi (Scalar.muli (BitVec.ofNat 32 (i 0).val) 2048#32) (BitVec.ofNat 32 (0 * 2048 + p.val)))
      (IntOp.addi (Scalar.muli (BitVec.ofNat 32 (i 1).val) 512#32) (BitVec.ofNat 32 (0 * 512 + q.val))) = _
  have e1 : IntOp.addi (Scalar.muli (BitVec.ofNat 32 (i 0).val) 2048#32) (BitVec.ofNat 32 (0 * 2048 + p.val))
      = BitVec.ofNat 32 ((i 0).val * 2048 + p.val) := by
    apply BitVec.eq_of_toNat_eq
    simp only [IntOp.addi, Scalar.muli, IntOp.muli, BitVec.toNat_add, BitVec.toNat_mul, BitVec.toNat_ofNat, Nat.reducePow]
    omega
  have e2 : IntOp.addi (Scalar.muli (BitVec.ofNat 32 (i 1).val) 512#32) (BitVec.ofNat 32 (0 * 512 + q.val))
      = BitVec.ofNat 32 ((i 1).val * 512 + q.val) := by
    apply BitVec.eq_of_toNat_eq
    simp only [IntOp.addi, Scalar.muli, IntOp.muli, BitVec.toNat_add, BitVec.toNat_mul, BitVec.toNat_ofNat, Nat.reducePow]
    omega
  rw [e1, e2]
  exact Cert.Spec.cmpi_eq_ofNat _ _ (by omega) (by omega)

/-- Where the product's dimension record sends a result index and a contraction index: the kept axis of each operand
    takes the result's coordinate, the contracted axis the contraction's. -/
theorem lhs0 (j : S2048x512.Idx) (q : dot_S2048x1024_S512x1024_S2048x512_1_1_0_0_n_n.contr.Idx) : (dot_S2048x1024_S512x1024_S2048x512_1_1_0_0_n_n.lhsIdx j q 0).val = (j 0).val := by
  unfold DotDims.lhsIdx
  rw [dif_neg (show ¬(0 : Fin S2048x1024.rank) ∈ dot_S2048x1024_S512x1024_S2048x512_1_1_0_0_n_n.lhsBatch by decide),
    dif_pos (show (0 : Fin S2048x1024.rank) ∈ dot_S2048x1024_S512x1024_S2048x512_1_1_0_0_n_n.lhsNonContracting by decide)]
  rfl
theorem lhs1 (j : S2048x512.Idx) (q : dot_S2048x1024_S512x1024_S2048x512_1_1_0_0_n_n.contr.Idx) : (dot_S2048x1024_S512x1024_S2048x512_1_1_0_0_n_n.lhsIdx j q 1).val = (q ⟨0, by decide⟩).val :=
  dot_S2048x1024_S512x1024_S2048x512_1_1_0_0_n_n.lhsIdx_val_of_single rfl j q
theorem rhs0 (j : S2048x512.Idx) (q : dot_S2048x1024_S512x1024_S2048x512_1_1_0_0_n_n.contr.Idx) : (dot_S2048x1024_S512x1024_S2048x512_1_1_0_0_n_n.rhsIdx j q 0).val = (j 1).val := by
  unfold DotDims.rhsIdx
  rw [dif_neg (show ¬(0 : Fin S512x1024.rank) ∈ dot_S2048x1024_S512x1024_S2048x512_1_1_0_0_n_n.rhsBatch by decide),
    dif_pos (show (0 : Fin S512x1024.rank) ∈ dot_S2048x1024_S512x1024_S2048x512_1_1_0_0_n_n.rhsNonContracting by decide)]
  rfl
theorem rhs1 (j : S2048x512.Idx) (q : dot_S2048x1024_S512x1024_S2048x512_1_1_0_0_n_n.contr.Idx) : (dot_S2048x1024_S512x1024_S2048x512_1_1_0_0_n_n.rhsIdx j q 1).val = (q ⟨0, by decide⟩).val :=
  dot_S2048x1024_S512x1024_S2048x512_1_1_0_0_n_n.rhsIdx_val_of_single rfl j q

/-- A similarity at (p, q) is the inner product of row p of the row block with row q of the column block. -/
theorem dots_apply (x0 : FVec Ideal S2048x1024 .bf16) (x1 : FVec Ideal S512x1024 .bf16) (p : Fin 2048) (q : Fin 512) :
    dots x0 x1 (ix2 p q) = ∑ k : Fin 1024, x0 (ix2 p k) * x1 (ix2 q k) := by
  unfold dots
  refine Cert.LibContract1.matmul_zero_single dot_S2048x1024_S512x1024_S2048x512_1_1_0_0_n_n 1024 rfl rfl x0 x1 (ix2 p q)
    (fun k => ix2 p k) (fun k => ix2 q k) (fun k => ?_) (fun k => ?_)
  · have hk := contrEquiv1_symm_val dot_S2048x1024_S512x1024_S2048x512_1_1_0_0_n_n 1024 rfl rfl k
    funext a
    apply Fin.ext
    match a with
    | ⟨0, _⟩ => exact lhs0 _ _
    | ⟨1, _⟩ => exact (lhs1 _ _).trans hk
  · have hk := contrEquiv1_symm_val dot_S2048x1024_S512x1024_S2048x512_1_1_0_0_n_n 1024 rfl rfl k
    funext a
    apply Fin.ext
    match a with
    | ⟨0, _⟩ => exact rhs0 _ _
    | ⟨1, _⟩ => exact (rhs1 _ _).trans hk

/-- A lane sum of a [2048, 512] array at row p is the sum over the 512 lanes. -/
theorem rowSum_apply (v : FVec Ideal S2048x512 .f32) (hφ : FKind.Formats .f32)
    (hacc : (0x00000000#32 : BitVec 32) = FKind.add.neutral .f32 hφ) (p : Fin 2048) :
    multiReduction .add [1] S2048 v 0x00000000#32 Facts₀.reduces_S2048x512_S2048 hφ hacc (ix1 p) = ∑ q : Fin 512, v (ix2 p q) := by
  refine (Ideal.multiReduction_add_single v 0x00000000#32 Facts₀.reduces_S2048x512_S2048 hφ hacc (ix1 p)).trans ?_
  refine Finset.sum_congr rfl fun q _ => congrArg v (funext fun a => Fin.ext ?_)
  match a with
  | ⟨0, _⟩ => rfl
  | ⟨1, _⟩ => rfl

/-- The sum of a [2048, 1] column down its rows. -/
theorem colSum_apply (v : FVec Ideal S2048x1 .f32) (hφ : FKind.Formats .f32)
    (hacc : (0x00000000#32 : BitVec 32) = FKind.add.neutral .f32 hφ) :
    multiReduction .add [0] S1 v 0x00000000#32 Facts₀.reduces_S2048x1_S1 hφ hacc (ix1 (0 : Fin 1)) = ∑ p : Fin 2048, v (ix2 p (0 : Fin 1)) := by
  refine (Ideal.multiReduction_add_single v 0x00000000#32 Facts₀.reduces_S2048x1_S1 hφ hacc (ix1 (0 : Fin 1))).trans ?_
  refine Finset.sum_congr rfl fun p _ => congrArg v (funext fun a => Fin.ext ?_)
  match a with
  | ⟨0, _⟩ => rfl
  | ⟨1, _⟩ => rfl

/-- The tile's sum: over its 2048 rows and 512 columns, each entry's contribution, the entry being the inner product of
    the two rows and the mask the diagonal of the whole matrix. -/
def tileSum (i : grid0.Coords) (x0 : FVec Ideal S2048x1024 .bf16) (x1 : FVec Ideal S512x1024 .bf16) : EReal :=
  ∑ p : Fin 2048, ∑ q : Fin 512,
    Cert.Spec.entry (Cert.Spec.diagBit ((i 0).val * 2048 + p.val) ((i 1).val * 512 + q.val)) (∑ k : Fin 1024, x0 (ix2 p k) * x1 (ix2 q k))

/-- The accumulate-payload at its one entry: the old accumulator plus the tile's sum. -/
theorem pay3_apply (i : grid0.Coords) (x0 : FVec Ideal S2048x1024 .bf16) (x1 : FVec Ideal S512x1024 .bf16) (acc : FVec Ideal S1x1 .f32) :
    k0_pay3 (F := Ideal) i x0 x1 acc (ix2 (0 : Fin 1) (0 : Fin 1)) = acc (ix2 (0 : Fin 1) (0 : Fin 1)) + tileSum i x0 x1 := by
  unfold k0_pay3
  simp only [shapeCast_self]
  refine congrArg (acc (ix2 (0 : Fin 1) (0 : Fin 1)) + ·) ?_
  refine (Cert.LibIdx.shapeCast_a_a1_apply _ _ (0 : Fin 1) (0 : Fin 1)).trans ?_
  refine (colSum_apply _ _ _).trans ?_
  unfold tileSum
  refine Finset.sum_congr rfl fun p _ => ?_
  refine (Cert.LibIdx.shapeCast_a_a1_apply _ _ p (0 : Fin 1)).trans ?_
  refine (rowSum_apply _ _ _ p).trans ?_
  refine Finset.sum_congr rfl fun q _ => ?_
  show Cert.Spec.entry (bits i (ix2 p q)) (dots x0 x1 (ix2 p q)) = _
  rw [bits_apply, dots_apply]

end Cert.KernelIdeal.Tile

end
-- ==== Proof.KAccum.lean ====
/-
  What the kernel leaves in its result array: one running sum per row of the grid.

  The grid is 2 rows of 8 points. Along a row the one-entry accumulator restarts from zero at the first point and gains
  one tile's sum per point; the last point of the row also writes the accumulator to the row's entry of the result
  array. Read case by case and joined by induction on the point, the accumulator after point n is the running sum of
  the tiles of its row up to n; the two write-backs (at the ends of the two rows) cover the two entries of the result.
-/
import proofs.«153321_j82892868813397_2_alg».proof.Proof.Gen.KernelIdeal.Frame
import proofs.«153321_j82892868813397_2_alg».proof.Proof.KPieces
import proofs.«153321_j82892868813397_2_alg».proof.Proof.KTile
import Idealize.ShloMosaic.Lib.Pipeline.Value
import Idealize.ShloMosaic.Lib.StableHlo.Run
import Idealize.ShloMosaic.Lib.Tactic
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.Acc
open Cert.KernelIdeal Cert.KernelIdeal.Gen

open Idealize.ShloMosaic.ValueIdx
open scoped BigOperators

variable (m : (ℓ : Loc nD τ sig) → Buf (Elt Ideal) ℓ)

/-- The one index of the accumulator, and of an output block. -/
abbrev o00 : S1x1.Idx := ix2 (0 : Fin 1) (0 : Fin 1)
abbrev o000 : S1x1x1.Idx := ix3 (0 : Fin 1) (0 : Fin 1) (0 : Fin 1)

/-- The sum of the tile that grid point `t` sees: the row block and the column block its two windows hold there. -/
def T (c : Dev nD) (t : Fin cfg0.N) : EReal := Tile.tileSum (grid0.coords t) (iblk m c 0 t) (iblk m c 1 t)

/-- The block the first inner point stores into the accumulator is zero's word. -/
theorem pay2_zero : (k0_pay2 (F := Ideal)) o00 = Ideal.ofBits .f32 0x00000000#32 := by
  unfold k0_pay2
  simp only [shapeCast_self]
  rfl

/-- Re-shaping the one-entry accumulator to the output block's rank keeps the entry. -/
theorem pay1_apply (v : Vec Ideal S1x1 .f32) : k0_pay1 (F := Ideal) v o000 = v o00 := by
  unfold k0_pay1
  exact shapeCast_apply v _ o000 o00 rfl

/-- At the first inner point the accumulator becomes zero plus the tile's sum. -/
theorem step_A (c : Dev nD) (t : Fin cfg0.N) (h0 : t.val % 8 = 0) (h1 : ¬t.val % 8 = 7) :
    (outsAt0 m c t.val t.isLt).2 o00 = Ideal.ofBits .f32 0x00000000#32 + T m c t := by
  have hc0 : cond0_0 (grid0.coords t) := (hcond0_0 t).mpr h0
  have hc1 : ¬cond0_1 (grid0.coords t) := fun h => h1 ((hcond0_1 t).mp h)
  rw [outsAt0_A m c t h0 h1]
  dsimp only
  rw [Pieces.scratch_A c (grid0.coords t) (ms0_0 t) (hs0_0 t) (ms0_1 t) (hs0_1 t) (ms0_2 t) (hs0_2 t) scM0_0
    (Memref.isWhole_whole _) hc0 hc1 (iblk m c 0 t) (iblk m c 1 t)]
  exact (Tile.pay3_apply (grid0.coords t) (iblk m c 0 t) (iblk m c 1 t) k0_pay2).trans
    (congrArg (· + T m c t) pay2_zero)

/-- At a middle inner point it becomes what the point before left plus the tile's sum. -/
theorem step_B (c : Dev nD) (t : Fin cfg0.N) (h0 : ¬t.val % 8 = 0) (h1 : ¬t.val % 8 = 7) :
    (outsAt0 m c t.val t.isLt).2 o00
      = (outsAt0 m c (t.val - 1) (Nat.lt_of_le_of_lt (Nat.sub_le _ _) t.isLt)).2 o00 + T m c t := by
  have hc0 : ¬cond0_0 (grid0.coords t) := fun h => h0 ((hcond0_0 t).mp h)
  have hc1 : ¬cond0_1 (grid0.coords t) := fun h => h1 ((hcond0_1 t).mp h)
  rw [outsAt0_B m c t h0 h1]
  dsimp only
  rw [Pieces.scratch_B c (grid0.coords t) (ms0_0 t) (hs0_0 t) (ms0_1 t) (hs0_1 t) (ms0_2 t) (hs0_2 t) scM0_0
    (Memref.isWhole_whole _) hc0 hc1 (iblk m c 0 t) (iblk m c 1 t)
    (outsAt0 m c (t.val - 1) (Nat.lt_of_le_of_lt (Nat.sub_le _ _) t.isLt)).2]
  exact Tile.pay3_apply (grid0.coords t) (iblk m c 0 t) (iblk m c 1 t)
    (outsAt0 m c (t.val - 1) (Nat.lt_of_le_of_lt (Nat.sub_le _ _) t.isLt)).2

/-- At the last inner point likewise, -/
theorem step_C (c : Dev nD) (t : Fin cfg0.N) (h0 : ¬t.val % 8 = 0) (h1 : t.val % 8 = 7) :
    (outsAt0 m c t.val t.isLt).2 o00
      = (outsAt0 m c (t.val - 1) (Nat.lt_of_le_of_lt (Nat.sub_le _ _) t.isLt)).2 o00 + T m c t := by
  have hc0 : ¬cond0_0 (grid0.coords t) := fun h => h0 ((hcond0_0 t).mp h)
  have hc1 : cond0_1 (grid0.coords t) := (hcond0_1 t).mpr h1
  rw [outsAt0_C m c t h0 h1]
  dsimp only
  rw [Pieces.scratch_C c (grid0.coords t) (ms0_0 t) (hs0_0 t) (ms0_1 t) (hs0_1 t) (ms0_2 t) (hs0_2 t) scM0_0
    (Memref.isWhole_whole _) hc0 hc1 (iblk m c 0 t) (iblk m c 1 t)
    (outsAt0 m c (t.val - 1) (Nat.lt_of_le_of_lt (Nat.sub_le _ _) t.isLt)).2]
  exact Tile.pay3_apply (grid0.coords t) (iblk m c 0 t) (iblk m c 1 t)
    (outsAt0 m c (t.val - 1) (Nat.lt_of_le_of_lt (Nat.sub_le _ _) t.isLt)).2

/-- and the output block's entry is the accumulator's new entry. -/
theorem out_C (c : Dev nD) (t : Fin cfg0.N) (h0 : ¬t.val % 8 = 0) (h1 : t.val % 8 = 7) :
    (outsAt0 m c t.val t.isLt).1 o000 = (outsAt0 m c t.val t.isLt).2 o00 := by
  have hc0 : ¬cond0_0 (grid0.coords t) := fun h => h0 ((hcond0_0 t).mp h)
  have hc1 : cond0_1 (grid0.coords t) := (hcond0_1 t).mpr h1
  rw [outsAt0_C m c t h0 h1]
  dsimp only
  rw [Pieces.out_C c (grid0.coords t) (ms0_0 t) (hs0_0 t) (ms0_1 t) (hs0_1 t) (ms0_2 t) (hs0_2 t) scM0_0
      (Memref.isWhole_whole _) hc0 hc1 (iblk m c 0 t) (iblk m c 1 t)
      (outsAt0 m c (t.val - 1) (Nat.lt_of_le_of_lt (Nat.sub_le _ _) t.isLt)).2,
    Pieces.scratch_C c (grid0.coords t) (ms0_0 t) (hs0_0 t) (ms0_1 t) (hs0_1 t) (ms0_2 t) (hs0_2 t) scM0_0
      (Memref.isWhole_whole _) hc0 hc1 (iblk m c 0 t) (iblk m c 1 t)
      (outsAt0 m c (t.val - 1) (Nat.lt_of_le_of_lt (Nat.sub_le _ _) t.isLt)).2]
  exact pay1_apply _

/-- The running sum along one row of the grid: it restarts from zero at each first inner point and adds one tile's sum
    per point. -/
def accAt (c : Dev nD) : (n : ℕ) → n < cfg0.N → EReal
  | 0, h => Ideal.ofBits .f32 0x00000000#32 + T m c ⟨0, h⟩
  | n + 1, h =>
    if (n + 1) % 8 = 0 then Ideal.ofBits .f32 0x00000000#32 + T m c ⟨n + 1, h⟩
    else accAt c n (Nat.lt_of_succ_lt h) + T m c ⟨n + 1, h⟩

theorem accAt_congr (c : Dev nD) {n n' : ℕ} (e : n = n') (h : n < cfg0.N) (h' : n' < cfg0.N) :
    accAt m c n h = accAt m c n' h' := by
  subst e; rfl

/-- What the accumulator holds after point `n` is the running sum, by induction on the point. -/
theorem scratch_eq (c : Dev nD) : ∀ (n : ℕ) (h : n < cfg0.N), (outsAt0 m c n h).2 o00 = accAt m c n h
  | 0, h => step_A m c ⟨0, h⟩ rfl (by show ¬0 % 8 = 7; decide)
  | n + 1, h => by
    have hN : cfg0.N = 16 := N_0
    show _ = (if (n + 1) % 8 = 0 then _ else _)
    by_cases h0 : (n + 1) % 8 = 0
    · rw [if_pos h0]
      exact step_A m c ⟨n + 1, h⟩ h0 (by dsimp only; omega)
    · rw [if_neg h0]
      by_cases h1 : (n + 1) % 8 = 7
      · refine (step_C m c ⟨n + 1, h⟩ h0 h1).trans ?_
        show (outsAt0 m c n _).2 o00 + _ = accAt m c n _ + _
        rw [scratch_eq c n]
      · refine (step_B m c ⟨n + 1, h⟩ h0 h1).trans ?_
        show (outsAt0 m c n _).2 o00 + _ = accAt m c n _ + _
        rw [scratch_eq c n]

/-- The printed index maps and grid coordinates, decided once over the sixteen points: the output block and the row
    block follow the outer coordinate, the column block the inner one. -/
theorem idx_facts : ∀ t : Fin cfg0.N,
    win0_2.index t (0 : Fin 3) = t.val / 8 ∧ win0_2.index t (1 : Fin 3) = 0 ∧ win0_2.index t (2 : Fin 3) = 0
    ∧ win0_0.index t (0 : Fin 2) = t.val / 8 ∧ win0_0.index t (1 : Fin 2) = 0
    ∧ win0_1.index t (0 : Fin 2) = t.val % 8 ∧ win0_1.index t (1 : Fin 2) = 0
    ∧ ((grid0.coords t) 0).val = t.val / 8 ∧ ((grid0.coords t) 1).val = t.val % 8 :=
  (by decide +kernel : ∀ t : Fin grid0.N, _)

/-- The result array: entry `i` is the running sum at the end of grid row `i`. -/
def G2 (c : Dev nD) : S2x1x1.Idx → EReal := fun j =>
  accAt m c (8 * (j 0).val + 7) (by
    have h : (j 0).val < 2 := (j 0).isLt
    have hN : cfg0.N = 16 := N_0
    omega)

theorem idx111_eq (y : S1x1x1.Idx) : y = o000 := by
  funext a
  match a with
  | ⟨0, _⟩ => exact Subsingleton.elim (α := Fin 1) _ _
  | ⟨1, _⟩ => exact Subsingleton.elim (α := Fin 1) _ _
  | ⟨2, _⟩ => exact Subsingleton.elim (α := Fin 1) _ _

/-- What a last inner point writes back is its block of the result array. -/
theorem flushed_eq (c : Dev nD) (t : Fin cfg0.N) (hf : (cfg0.win 2).flush t = true) :
    (dats m 0 c).flushed 2 t = ((cfg0.win 2).blk t).view.read (Elt Ideal) (G2 m c) := by
  have h7 : t.val % 8 = 7 := (flush0_2 t).mp hf
  have hN : cfg0.N = 16 := N_0
  have h0 : ¬t.val % 8 = 0 := by omega
  obtain ⟨e0, e1, e2, -⟩ := idx_facts t
  show (cfg0.win 2).cut (grid0.coords t) ((dats m 0 c).after 2 t) = _
  rw [after0_2]
  funext y
  rw [View.read_apply]
  show (outsAt0 m c t.val t.isLt).1 y = G2 m c (((cfg0.win 2).blk t).view.emb y)
  rw [idx111_eq y, out_C m c t h0 h7, scratch_eq]
  unfold G2
  refine accAt_congr m c ?_ _ _
  show t.val = 8 * (win0_2.index t (0 : Fin 3) * 1 + 1 * 0) + 7
  omega

/-- An index of the result array lies in a point's block iff each coordinate is in the block's range. -/
theorem mem_blk (t : Fin cfg0.N) (i : S2x1x1.Idx) :
    i ∈ ((cfg0.win 2).blk t).view.set ↔ ∀ a : Fin 3, win0_2.index t a * S1x1x1.size a ≤ (i a).val ∧ (i a).val < win0_2.index t a * S1x1x1.size a + S1x1x1.size a := by
  show i ∈ ((View.whole main_v23).slice (win0_2.rect t)).set ↔ _
  rw [View.set_slice_whole, Rect.mem_set_unit]
  exact Iff.rfl

/-- So the result array ends holding the two rows' running sums. -/
theorem final2 (c : Dev nD) : (dats m 0 c).arrAt 2 cfg0.N = G2 m c := by
  have hN : cfg0.N = 16 := N_0
  refine (dats m 0 c).arrAt_eq_of_cover 2 (G2 m c) (fun t hf => flushed_eq m c t hf) fun i => ?_
  have hi0 : (i 0).val < 2 := (i 0).isLt
  have hi1 : (i 1).val < 1 := (i 1).isLt
  have hi2 : (i 2).val < 1 := (i 2).isLt
  refine ⟨⟨8 * (i 0).val + 7, by omega⟩, (flush0_2 _).mpr (by dsimp only; omega), ?_⟩
  rw [mem_blk]
  obtain ⟨e0, e1, e2, -⟩ := idx_facts ⟨8 * (i 0).val + 7, by omega⟩
  intro a
  match a with
  | ⟨0, _⟩ =>
    show win0_2.index _ (0 : Fin 3) * 1 ≤ (i 0).val ∧ (i 0).val < win0_2.index _ (0 : Fin 3) * 1 + 1
    rw [e0]; dsimp only; omega
  | ⟨1, _⟩ =>
    show win0_2.index _ (1 : Fin 3) * 1 ≤ (i 1).val ∧ (i 1).val < win0_2.index _ (1 : Fin 3) * 1 + 1
    rw [e1]; omega
  | ⟨2, _⟩ =>
    show win0_2.index _ (2 : Fin 3) * 1 ≤ (i 2).val ∧ (i 2).val < win0_2.index _ (2 : Fin 3) * 1 + 1
    rw [e2]; omega

end Cert.KernelIdeal.Acc

end
-- ==== Proof.KHost.lean ====
/-
  What the host computes before the kernel is launched, as functions of the two argument arrays.

  Each matrix has its rows divided by the row's clamped Euclidean norm (the larger of the norm and a small positive
  clamp); these two normalized matrices are what the kernel's two input windows read. The positive-pair loss — the mean
  over rows of (1 - cosine similarity of the paired rows) squared — is computed wholly on the host, before the launch.
  Each statement reads one buffer's contents at the region's entry back through the host operations that wrote it.
-/
import proofs.«153321_j82892868813397_2_alg».proof.Proof.Gen.KernelIdeal.Frame
import Idealize.ShloMosaic.Lib.Pipeline.Value
import Idealize.ShloMosaic.Lib.StableHlo.Run
import Idealize.ShloMosaic.Lib.Tactic
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.Host
open Cert.KernelIdeal Cert.KernelIdeal.Gen

variable {F : FTy → Type} [FloatOps F]

/-- The clamped row norms as a column: the square root of each row's sum of squares (from zero), not below the clamp. -/
def nrmCol (x : FVec F S4096x1024 .f32) : FVec F S4096x1 .f32 :=
  maximumf
    (Host.sqrt (broadcastInDim S4096x1 ![0] Facts₀.bcast_S4096_S4096x1_0
      (Host.reduceAdd (mulf x x) (constant S_ .f32 0x00000000#32) Facts₀.reducesTo_S4096x1024_S4096_d1 Facts₀.h_S_)))
    (broadcastInDim S4096x1 ![] Facts₀.bcast_S_S4096x1 (constant S_ .f32 0x322BCC77#32))

/-- A matrix with every row divided by its clamped norm (the change of float format is the identity on the values). -/
def normalized (x : FVec F S4096x1024 .f32) : FVec F S4096x1024 .bf16 :=
  truncf .bf16 (Host.divf x (broadcastInDim S4096x1024 ![0, 1] Facts₀.bcast_S4096x1_S4096x1024_0_1 (nrmCol x))) Facts₀.bitsLt_bf16_f32

/-- The positive-pair loss: the mean over rows of the squared gap between one and the row's cosine similarity. -/
def lpos (a b : FVec F S4096x1024 .f32) : FVec F S_ .f32 :=
  Host.divf
    (Host.reduceAdd
      (mulf
        (subf (broadcastInDim S4096 ![] Facts₀.bcast_S_S4096 (constant S_ .f32 0x3F800000#32))
          (Host.divf (Host.reduceAdd (mulf a b) (constant S_ .f32 0x00000000#32) Facts₀.reducesTo_S4096x1024_S4096_d1 Facts₀.h_S_)
            (mulf (shapeCast S4096 (nrmCol a) Facts₀.shapeCasts_S4096x1_S4096) (shapeCast S4096 (nrmCol b) Facts₀.shapeCasts_S4096x1_S4096))))
        (subf (broadcastInDim S4096 ![] Facts₀.bcast_S_S4096 (constant S_ .f32 0x3F800000#32))
          (Host.divf (Host.reduceAdd (mulf a b) (constant S_ .f32 0x00000000#32) Facts₀.reducesTo_S4096x1024_S4096_d1 Facts₀.h_S_)
            (mulf (shapeCast S4096 (nrmCol a) Facts₀.shapeCasts_S4096x1_S4096) (shapeCast S4096 (nrmCol b) Facts₀.shapeCasts_S4096x1_S4096)))))
      (constant S_ .f32 0x00000000#32) Facts₀.reducesTo_S4096_S_d0 Facts₀.h_S_)
    (constant S_ .f32 0x45800000#32)

variable (m : (ℓ : Loc nD τ sig) → Buf (Elt F) ℓ)

set_option maxRecDepth 8192 in
set_option maxHeartbeats 2000000 in
/-- The region's first operand array is the first argument with its rows normalized. -/
theorem V_v19 (c : Dev nD) : (V m c main_v19 : S4096x1024.Idx → F .bf16) = normalized (m ((c : Thread nD τ).loc main_arg0)) := by
  dsimp only [Gen.V, Gen.V0]
  simp only [Gen.hostOps0, Gen.hostOps0_1, Gen.hostOps0_2, Gen.hostOps0_3, List.flatten_cons, List.flatten_nil, List.append_nil, List.cons_append, List.nil_append]
  after_results_simp
  rfl

set_option maxRecDepth 8192 in
set_option maxHeartbeats 2000000 in
/-- The region's second operand array is the second argument with its rows normalized. -/
theorem V_v22 (c : Dev nD) : (V m c main_v22 : S4096x1024.Idx → F .bf16) = normalized (m ((c : Thread nD τ).loc main_arg1)) := by
  dsimp only [Gen.V, Gen.V0]
  simp only [Gen.hostOps0, Gen.hostOps0_1, Gen.hostOps0_2, Gen.hostOps0_3, List.flatten_cons, List.flatten_nil, List.append_nil, List.cons_append, List.nil_append]
  after_results_simp
  rfl

set_option maxRecDepth 8192 in
set_option maxHeartbeats 2000000 in
/-- The positive-pair loss is computed before the region, from the two arguments. -/
theorem V_v16 (c : Dev nD) : (V m c main_v16 : S_.Idx → F .f32) = lpos (m ((c : Thread nD τ).loc main_arg0)) (m ((c : Thread nD τ).loc main_arg1)) := by
  dsimp only [Gen.V, Gen.V0]
  simp only [Gen.hostOps0, Gen.hostOps0_1, Gen.hostOps0_2, Gen.hostOps0_3, List.flatten_cons, List.flatten_nil, List.append_nil, List.cons_append, List.nil_append]
  after_results_simp
  rfl

end Cert.KernelIdeal.Host

end
-- ==== Proof.SpecLoss.lean ====
/-
  The loss both programs compute, as one expression of the two argument matrices, and the laws between its two forms.

  For 4096 by 1024 matrices a and b: the clamped norm of a row; the positive-pair loss (the mean over rows of the squared
  gap between one and the paired rows' cosine similarity); a similarity matrix, in the form that divides the inner product
  by the product of the two norms and in the form that divides each row by its norm first; and the negative-pair loss of
  a similarity matrix (the mean over all pairs of the clipped, squared, diagonal-free similarity less the margin).
  The two similarity forms agree when every entry of a and b is a real number. A similarity multiplied by one minus the
  diagonal's indicator is the similarity with the diagonal selected to zero.
-/
import proofs.«153321_j82892868813397_2_alg».proof.Proof.Spec
import Idealize.ShloMosaic.Lib.ValueIdx

noncomputable section

namespace Cert.Spec

open Idealize.ShloMosaic Idealize.ShloMosaic.ValueIdx Cert.LibNormalize
open scoped BigOperators

/-- A 4096 by 1024 matrix of extended reals. -/
abbrev Mat := (⟨2, ![4096, 1024]⟩ : Shape).Idx → EReal

/-- The clamped norm of row r. -/
def nrm (x : Mat) (r : Fin 4096) : EReal :=
  max (Ideal.sqrt (Ideal.ofBits .f32 0x00000000#32 + ∑ k : Fin 1024, x (ix2 r k) * x (ix2 r k))) (Ideal.ofBits .f32 0x322BCC77#32)

/-- The gap between one and the cosine similarity of the paired rows r of a and b. -/
def gap (a b : Mat) (r : Fin 4096) : EReal :=
  Ideal.ofBits .f32 0x3F800000#32
    - Ideal.div (Ideal.ofBits .f32 0x00000000#32 + ∑ k : Fin 1024, a (ix2 r k) * b (ix2 r k)) (nrm a r * nrm b r)

/-- The positive-pair loss. -/
def lpos (a b : Mat) : EReal :=
  Ideal.div (Ideal.ofBits .f32 0x00000000#32 + ∑ r : Fin 4096, gap a b r * gap a b r) (Ideal.ofBits .f32 0x45800000#32)

/-- The similarity of row r of a and row s of b, normalized after the inner product, -/
def simAfter (a b : Mat) (r s : Fin 4096) : EReal :=
  Ideal.div (∑ k : Fin 1024, a (ix2 r k) * b (ix2 s k)) (nrm a r * nrm b s)

/-- and normalized before it. -/
def simBefore (a b : Mat) (r s : Fin 4096) : EReal :=
  ∑ k : Fin 1024, Ideal.div (a (ix2 r k)) (nrm a r) * Ideal.div (b (ix2 s k)) (nrm b s)

/-- The sum over all pairs of a similarity matrix's contributions. -/
def pairSum (sim : Fin 4096 → Fin 4096 → EReal) : EReal :=
  ∑ r : Fin 4096, ∑ s : Fin 4096, entry (diagBit r.val s.val) (sim r s)

/-- The negative-pair loss from the pair sum. -/
def lneg (total : EReal) : EReal :=
  Ideal.div (Ideal.ofBits .f32 0x00000000#32 + total) (Ideal.ofBits .f32 0x4B800000#32)

/-- The word of 1.0 denotes one. -/
theorem ofBits_one : Ideal.ofBits .f32 0x3F800000#32 = 1 := by
  simp [Ideal.ofBits, Ideal.ieee, -EReal.coe_mul]; norm_num

/-- The clamp's word denotes a positive real. -/
theorem eps_pos : ∃ e : ℝ, 0 < e ∧ Ideal.ofBits .f32 0x322BCC77#32 = (e : EReal) := by
  refine ⟨(11258999 : ℝ) * (2 : ℝ) ^ (-50 : ℤ), by positivity, ?_⟩
  simp [Ideal.ofBits, Ideal.ieee, -EReal.coe_mul]

/-- A similarity times one minus the diagonal's indicator (the indicator converted to a float) is the similarity with
    the diagonal selected to zero. -/
theorem masked_eq (b : BitVec 1) (x : EReal) :
    x * (Ideal.ofBits .f32 0x3F800000#32 - ((b.toNat : ℝ) : EReal)) = Scalar.select b (Ideal.ofBits .f32 0x00000000#32) x := by
  have hb : b = 0#1 ∨ b = 1#1 := by revert b; decide
  rcases hb with rfl | rfl
  · have h1 : (((0#1 : BitVec 1).toNat : ℝ) : EReal) = ((0 : ℝ) : EReal) := by norm_num
    rw [ofBits_one, h1, mask_off]
    unfold Scalar.select
    rw [if_neg (by decide)]
  · have h1 : (((1#1 : BitVec 1).toNat : ℝ) : EReal) = ((1 : ℝ) : EReal) := by norm_num
    rw [ofBits_one, h1, mask_diag, Ideal.ofBits_zero_f32]
    unfold Scalar.select
    exact (if_pos (by decide)).symm

/-- With every entry real, the clamped norm of a row is a positive real. -/
theorem nrm_real (x : Mat) (hx : ∀ i, x i ≠ ⊤ ∧ x i ≠ ⊥) (r : Fin 4096) : ∃ cr : ℝ, 0 < cr ∧ nrm x r = (cr : EReal) := by
  obtain ⟨e, he, hE⟩ := eps_pos
  have hreal : ∀ k : Fin 1024, x (ix2 r k) = ((x (ix2 r k)).toReal : EReal) :=
    fun k => (EReal.coe_toReal (hx _).1 (hx _).2).symm
  obtain ⟨cr, hc, hcr⟩ := norm_pos_real Finset.univ (fun k : Fin 1024 => (x (ix2 r k)).toReal) he
  refine ⟨cr, hc, ?_⟩
  unfold nrm
  rw [hE, Ideal.ofBits_zero_f32, ← hcr]
  congr 3
  exact Finset.sum_congr rfl fun k _ => by rw [← hreal k]

/-- With every entry real, normalizing before or after the inner product gives the same similarity. -/
theorem simBefore_eq_simAfter (a b : Mat) (ha : ∀ i, a i ≠ ⊤ ∧ a i ≠ ⊥) (hb : ∀ i, b i ≠ ⊤ ∧ b i ≠ ⊥) (r s : Fin 4096) :
    simBefore a b r s = simAfter a b r s := by
  obtain ⟨cr, hc, hcr⟩ := nrm_real a ha r
  obtain ⟨ds, hd, hds⟩ := nrm_real b hb s
  have hra : ∀ k : Fin 1024, a (ix2 r k) = ((a (ix2 r k)).toReal : EReal) :=
    fun k => (EReal.coe_toReal (ha _).1 (ha _).2).symm
  have hrb : ∀ k : Fin 1024, b (ix2 s k) = ((b (ix2 s k)).toReal : EReal) :=
    fun k => (EReal.coe_toReal (hb _).1 (hb _).2).symm
  unfold simBefore simAfter
  rw [hcr, hds]
  have := normalize_comm Finset.univ (fun k : Fin 1024 => (a (ix2 r k)).toReal) (fun k : Fin 1024 => (b (ix2 s k)).toReal)
    (ne_of_gt hc) (ne_of_gt hd)
  simp only [← hra, ← hrb] at this
  exact this

end Cert.Spec

end
-- ==== Proof.KNormAt.lean ====
/-
  The host's values before the launch, read at an index, in the specification's terms.

  At the ideal values: the norm column at row r is the specification's clamped norm of row r; a normalized matrix at
  (r, k) is the entry divided by its row's clamped norm; the positive-pair loss is the specification's. Each reading
  passes an index through the host's broadcasts, its row sums (the initial value plus the sum over the row) and its
  re-shapes.
-/
import proofs.«153321_j82892868813397_2_alg».proof.Proof.KHost
import proofs.«153321_j82892868813397_2_alg».proof.Proof.SpecLoss
import proofs.«153321_j82892868813397_2_alg».proof.Proof.LibIdx
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem

namespace Cert.KernelIdeal.Host
open Cert.KernelIdeal Cert.KernelIdeal.Gen

open Idealize.ShloMosaic.ValueIdx Cert.Spec
open scoped BigOperators

/-- The host's sum of a matrix along each row, from an initial value. -/
theorem rowSum_apply (y : FVec Ideal S4096x1024 .f32) (v : FVec Ideal S_ .f32) (r : Fin 4096) :
    Host.reduceAdd (F := Ideal) y v Facts₀.reducesTo_S4096x1024_S4096_d1 Facts₀.h_S_ (ix1 r)
      = v (Shape.Idx.first Facts₀.h_S_) + ∑ k : Fin 1024, y (ix2 r k) := by
  simp only [Host.reduceAdd, Ideal.hostReduceAdd_def]
  rw [Ideal.hostReduceAdd_single Facts₀.reducesTo_S4096x1024_S4096_d1 (by decide)]
  refine congrArg (_ + ·) (Finset.sum_congr rfl fun k _ => ?_)
  exact congrArg y (funext fun a => Fin.ext (by match a with | ⟨0, _⟩ => rfl | ⟨1, _⟩ => rfl))

/-- The norm column at row r is the specification's clamped norm. -/
theorem nrmCol_apply (x : FVec Ideal S4096x1024 .f32) (r : Fin 4096) :
    nrmCol (F := Ideal) x (ix2 r (0 : Fin 1)) = nrm x r := by
  unfold nrmCol
  show max (Ideal.sqrt (broadcastInDim (s := S4096) S4096x1 ![0] Facts₀.bcast_S4096_S4096x1_0 _ (ix2 r (0 : Fin 1))))
      (broadcastInDim (s := S_) S4096x1 ![] Facts₀.bcast_S_S4096x1 _ (ix2 r (0 : Fin 1))) = _
  rw [broadcastInDim_apply _ Facts₀.bcast_S4096_S4096x1_0 _ (ix2 r (0 : Fin 1)) (ix1 r) (fun a => match a with | ⟨0, _⟩ => by show r.val = if (4096 : Nat) = 1 then 0 else r.val; rw [if_neg (by decide)]),
    broadcastInDim_apply _ Facts₀.bcast_S_S4096x1 _ (ix2 r (0 : Fin 1)) ix0 (fun a => a.elim0),
    rowSum_apply]
  rfl

/-- A normalized matrix at (r, k) is the entry divided by its row's clamped norm. -/
theorem normalized_apply (x : FVec Ideal S4096x1024 .f32) (r : Fin 4096) (k : Fin 1024) :
    normalized (F := Ideal) x (ix2 r k) = Ideal.div (x (ix2 r k)) (nrm x r) := by
  unfold normalized
  show Ideal.div (x (ix2 r k)) (broadcastInDim S4096x1024 ![0, 1] Facts₀.bcast_S4096x1_S4096x1024_0_1 (nrmCol x) (ix2 r k)) = _
  rw [broadcastInDim_apply _ Facts₀.bcast_S4096x1_S4096x1024_0_1 _ (ix2 r k) (ix2 r (0 : Fin 1)) (fun a => match a with
      | ⟨0, _⟩ => by show r.val = if (4096 : Nat) = 1 then 0 else r.val; rw [if_neg (by decide)]
      | ⟨1, _⟩ => by show 0 = if (1 : Nat) = 1 then 0 else k.val; rw [if_pos rfl]),
    nrmCol_apply]

/-- The norm column re-shaped to a vector keeps each row's norm. -/
theorem nrmVec_apply (x : FVec Ideal S4096x1024 .f32) (r : Fin 4096) :
    shapeCast S4096 (nrmCol (F := Ideal) x) Facts₀.shapeCasts_S4096x1_S4096 (ix1 r) = nrm x r := by
  rw [shapeCast_apply _ Facts₀.shapeCasts_S4096x1_S4096 (ix1 r) (ix2 r (0 : Fin 1)) (by
    rw [Shape.rowMajor_val_two, Shape.rowMajor_val_one]
    show r.val * 1 + 0 = r.val
    omega), nrmCol_apply]

/-- The positive-pair loss the host computes is the specification's. -/
theorem lpos_apply (a b : FVec Ideal S4096x1024 .f32) (i : S_.Idx) : lpos (F := Ideal) a b i = Cert.Spec.lpos a b := by
  unfold lpos Cert.Spec.lpos
  show Ideal.div (Host.reduceAdd (F := Ideal) _ _ Facts₀.reducesTo_S4096_S_d0 Facts₀.h_S_ i) _ = _
  simp only [Host.reduceAdd, Ideal.hostReduceAdd_def]
  rw [Ideal.hostReduceAdd_total Facts₀.reducesTo_S4096_S_d0 (fun b => b.elim0), Cert.LibIdx.sum_idx1]
  refine congrArg₂ Ideal.div (congrArg (_ + ·) (Finset.sum_congr rfl fun r _ => ?_)) rfl
  have hg : (subf (broadcastInDim S4096 ![] Facts₀.bcast_S_S4096 (constant (F := Ideal) S_ .f32 0x3F800000#32))
      (Host.divf (Host.reduceAdd (F := Ideal) (mulf a b) (constant (F := Ideal) S_ .f32 0x00000000#32) Facts₀.reducesTo_S4096x1024_S4096_d1 Facts₀.h_S_)
        (mulf (shapeCast S4096 (nrmCol (F := Ideal) a) Facts₀.shapeCasts_S4096x1_S4096) (shapeCast S4096 (nrmCol (F := Ideal) b) Facts₀.shapeCasts_S4096x1_S4096))))
      (ix1 r) = gap a b r := by
    show broadcastInDim (s := S_) S4096 ![] Facts₀.bcast_S_S4096 _ (ix1 r)
        - Ideal.div (Host.reduceAdd (F := Ideal) (mulf a b) _ Facts₀.reducesTo_S4096x1024_S4096_d1 Facts₀.h_S_ (ix1 r))
          (shapeCast S4096 (nrmCol (F := Ideal) a) Facts₀.shapeCasts_S4096x1_S4096 (ix1 r) * shapeCast S4096 (nrmCol (F := Ideal) b) Facts₀.shapeCasts_S4096x1_S4096 (ix1 r)) = _
    rw [broadcastInDim_apply _ Facts₀.bcast_S_S4096 _ (ix1 r) ix0 (fun a => a.elim0), rowSum_apply, nrmVec_apply, nrmVec_apply]
    rfl
  exact congrArg₂ (· * ·) hg hg

end Cert.KernelIdeal.Host

end
-- ==== Proof.KRun.lean ====
/-
  The idealized kernel's result, in the specification's terms.

  After the region the host adds the two entries the kernel wrote, divides by the number of pairs and adds the
  positive-pair loss it computed before the launch. Each window's block at a grid point is a block of rows of a
  normalized argument, so a tile's sum is the sum of its pairs' contributions with the similarity normalized BEFORE the
  inner product; a grid row's eight tiles add up to the entry written for that row, and the sixteen tiles partition the
  4096 by 4096 square of pairs (row blocks of 2048, column blocks of 512), so the two entries add up to the sum over all
  pairs. With every argument entry real this is the sum with the similarity normalized after the inner product.
-/
import proofs.«153321_j82892868813397_2_alg».proof.Proof.Gen.KernelIdeal.Frame
import proofs.«153321_j82892868813397_2_alg».proof.Proof.KAccum
import proofs.«153321_j82892868813397_2_alg».proof.Proof.KHost
import proofs.«153321_j82892868813397_2_alg».proof.Proof.KNormAt
import proofs.«153321_j82892868813397_2_alg».proof.Proof.SpecLoss
import proofs.«153321_j82892868813397_2_alg».proof.Proof.LibIdx
import proofs.«153321_j82892868813397_2_alg».proof.Proof.LibNormalize
import Idealize.ShloMosaic.Lib.Pipeline.Value
import Idealize.ShloMosaic.Lib.StableHlo.Run
import Idealize.ShloMosaic.Lib.Tactic
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.Run
open Cert.KernelIdeal Cert.KernelIdeal.Gen

open Idealize.ShloMosaic.ValueIdx Cert.Spec Cert.LibNormalize
open scoped BigOperators

variable (m : (ℓ : Loc nD τ sig) → Buf (Elt Ideal) ℓ)

/-- The two argument matrices as core `c` holds them at launch. -/
abbrev A (c : Dev nD) : Mat := m ((c : Thread nD τ).loc main_arg0)
abbrev B (c : Dev nD) : Mat := m ((c : Thread nD τ).loc main_arg1)

/-- An index of the [2, 1, 1] result array is its first coordinate. -/
def idx211 : S2x1x1.Idx ≃ Fin 2 where
  toFun j := j 0
  invFun i := ix3 i (0 : Fin 1) (0 : Fin 1)
  left_inv j := by
    funext a
    match a with
    | ⟨0, _⟩ => rfl
    | ⟨1, _⟩ => exact Subsingleton.elim (α := Fin 1) _ _
    | ⟨2, _⟩ => exact Subsingleton.elim (α := Fin 1) _ _
  right_inv _ := rfl

theorem sum_idx211 (f : S2x1x1.Idx → EReal) :
    ∑ j, f j = f (ix3 (0 : Fin 2) (0 : Fin 1) (0 : Fin 1)) + f (ix3 (1 : Fin 2) (0 : Fin 1) (0 : Fin 1)) := by
  rw [← Equiv.sum_comp idx211.symm f, Fin.sum_univ_two]
  rfl

set_option maxRecDepth 8192 in
/-- The program's result: the host's positive-pair loss plus the mean of the two entries the kernel wrote. -/
theorem tail_eq (c : Dev nD) (i : S_.Idx) :
    (Pipeline.afterTail₀ cfgs (dats m) 0 (V0 m) [hostOps1] c main_v26 : S_.Idx → EReal) i
      = lpos (A m c) (B m c)
        + lneg (Acc.G2 m c (ix3 (0 : Fin 2) (0 : Fin 1) (0 : Fin 1)) + Acc.G2 m c (ix3 (1 : Fin 2) (0 : Fin 1) (0 : Fin 1))) := by
  unfold Pipeline.afterTail₀
  show StableHlo.after hostOps1 _ (Proc.devRef .tc main_v26) i = _
  after_results
  rw [Pipeline.withArrays_of_ne _ c (V0 m c) _ main_v16 (by exact (by decide : ∀ w, Pipeline.arrRef spec0 w ≠ main_v16))]
  have e23 : Pipeline.withArrays (cfgs 0).spec c (V0 m c) (fun w => (dats m 0 c).arrAt w (cfgs 0).N) (Proc.devRef .tc main_v23)
      = Acc.G2 m c :=
    (Pipeline.withArrays_arr spec0 launch0.win.arr_inj c _ _ 2).trans (Acc.final2 m c)
  have e16 : (V0 m c (Proc.devRef .tc main_v16) : S_.Idx → EReal) = Host.lpos (F := Ideal) (A m c) (B m c) := Host.V_v16 m c
  rw [e23, e16]
  show Host.lpos (F := Ideal) (A m c) (B m c) i
    + Ideal.div (Host.reduceAdd (F := Ideal) (Acc.G2 m c) _ Facts₀.reducesTo_S2x1x1_S_d0_1_2 Facts₀.h_S_ i) _ = _
  rw [Host.lpos_apply]
  simp only [Host.reduceAdd, Ideal.hostReduceAdd_def]
  rw [Ideal.hostReduceAdd_total Facts₀.reducesTo_S2x1x1_S_d0_1_2 (fun b => b.elim0), sum_idx211]
  rfl

/-- The global row that row `p` of the row block at point `t` is, and the global row of the second matrix that row `q`
    of the column block is. -/
def rowOf (t : Fin cfg0.N) (p : Fin 2048) : Fin 4096 :=
  ⟨(t.val / 8) * 2048 + p.val, by have := t.isLt; have hN : cfg0.N = 16 := N_0; have := p.isLt; omega⟩
def colOf (t : Fin cfg0.N) (q : Fin 512) : Fin 4096 :=
  ⟨(t.val % 8) * 512 + q.val, by have := q.isLt; omega⟩

/-- The row block the first window holds at point `t`: rows of the first argument, each divided by its clamped norm. -/
theorem iblk0_apply (c : Dev nD) (t : Fin cfg0.N) (p : Fin 2048) (k : Fin 1024) :
    (iblk m c 0 t : FVec Ideal S2048x1024 .bf16) (ix2 p k)
      = Ideal.div (A m c (ix2 (rowOf t p) k)) (nrm (A m c) (rowOf t p)) := by
  obtain ⟨-, -, -, e3, e4, -⟩ := Acc.idx_facts t
  unfold iblk
  rw [View.read_apply]
  show V m c main_v19 (((cfg0.win 0).blk t).view.emb (ix2 p k)) = _
  rw [Host.V_v19, ← Host.normalized_apply]
  refine congrArg (Host.normalized (F := Ideal) (A m c)) (funext fun a => Fin.ext ?_)
  match a with
  | ⟨0, _⟩ => show win0_0.index t (0 : Fin 2) * 2048 + 1 * p.val = (t.val / 8) * 2048 + p.val; rw [e3]; omega
  | ⟨1, _⟩ => show win0_0.index t (1 : Fin 2) * 1024 + 1 * k.val = k.val; rw [e4]; omega

/-- The column block the second window holds at point `t`, likewise. -/
theorem iblk1_apply (c : Dev nD) (t : Fin cfg0.N) (q : Fin 512) (k : Fin 1024) :
    (iblk m c 1 t : FVec Ideal S512x1024 .bf16) (ix2 q k)
      = Ideal.div (B m c (ix2 (colOf t q) k)) (nrm (B m c) (colOf t q)) := by
  obtain ⟨-, -, -, -, -, e5, e6, -⟩ := Acc.idx_facts t
  unfold iblk
  rw [View.read_apply]
  show V m c main_v22 (((cfg0.win 1).blk t).view.emb (ix2 q k)) = _
  rw [Host.V_v22, ← Host.normalized_apply]
  refine congrArg (Host.normalized (F := Ideal) (B m c)) (funext fun a => Fin.ext ?_)
  match a with
  | ⟨0, _⟩ => show win0_1.index t (0 : Fin 2) * 512 + 1 * q.val = (t.val % 8) * 512 + q.val; rw [e5]; omega
  | ⟨1, _⟩ => show win0_1.index t (1 : Fin 2) * 1024 + 1 * k.val = k.val; rw [e6]; omega

/-- One pair's contribution, with the similarity normalized before the inner product. -/
def contrib (c : Dev nD) (r s : Fin 4096) : EReal :=
  entry (diagBit r.val s.val) (simBefore (A m c) (B m c) r s)

/-- The tile's sum at point `t` is the sum of the contributions of the pairs in its tile. -/
theorem T_eq (c : Dev nD) (t : Fin cfg0.N) :
    Acc.T m c t = ∑ p : Fin 2048, ∑ q : Fin 512, contrib m c (rowOf t p) (colOf t q) := by
  obtain ⟨-, -, -, -, -, -, -, g0, g1⟩ := Acc.idx_facts t
  unfold Acc.T Tile.tileSum contrib simBefore
  refine Finset.sum_congr rfl fun p _ => Finset.sum_congr rfl fun q _ => ?_
  rw [g0, g1]
  refine congrArg (entry (diagBit ((t.val / 8) * 2048 + p.val) ((t.val % 8) * 512 + q.val))) (Finset.sum_congr rfl fun k _ => ?_)
  rw [iblk0_apply m c t p k, iblk1_apply m c t q k]

/-- The running sum, one step at a time, for every point. -/
theorem accAt_step (c : Dev nD) : ∀ (n : ℕ) (h : n < cfg0.N),
    Acc.accAt m c n h = if n % 8 = 0 then Ideal.ofBits .f32 0x00000000#32 + Acc.T m c ⟨n, h⟩
      else Acc.accAt m c (n - 1) (Nat.lt_of_le_of_lt (Nat.sub_le _ _) h) + Acc.T m c ⟨n, h⟩
  | 0, h => rfl
  | n + 1, h => rfl

/-- The tile sum at a natural number, zero past the grid. -/
def Tn (c : Dev nD) (n : ℕ) : EReal := if h : n < cfg0.N then Acc.T m c ⟨n, h⟩ else 0

/-- Along a grid row the running sum after the j-th point is zero plus the first j + 1 tile sums of the row. -/
theorem acc_prefix (c : Dev nD) (i : ℕ) : ∀ (j : ℕ) (hj : j < 8) (h : 8 * i + j < cfg0.N),
    Acc.accAt m c (8 * i + j) h = Ideal.ofBits .f32 0x00000000#32 + ∑ jj ∈ Finset.range (j + 1), Tn m c (8 * i + jj)
  | 0, hj, h => by
    rw [accAt_step, if_pos (by omega), Finset.sum_range_one]
    unfold Tn
    rw [dif_pos h]
  | j + 1, hj, h => by
    have h' : 8 * i + j < cfg0.N := by omega
    rw [accAt_step, if_neg (by omega), Acc.accAt_congr m c (show 8 * i + (j + 1) - 1 = 8 * i + j by omega) _ h',
      acc_prefix c i j (by omega) h', Finset.sum_range_succ _ (j + 1), add_assoc]
    congr 2
    unfold Tn
    rw [dif_pos h]

/-- So the entry the kernel writes for grid row `i` is the sum of the row's eight tile sums. -/
theorem G2_row (c : Dev nD) (i : Fin 2) :
    Acc.G2 m c (ix3 i (0 : Fin 1) (0 : Fin 1))
      = Ideal.ofBits .f32 0x00000000#32 + ∑ jj : Fin 8, Tn m c (8 * i.val + jj.val) := by
  have hN : cfg0.N = 16 := N_0
  have hi := i.isLt
  unfold Acc.G2
  show Acc.accAt m c (8 * i.val + 7) _ = _
  rw [acc_prefix m c i.val 7 (by omega) (by omega), Finset.sum_range]

/-- The tile of a point on grid row `i`, inner position `jj`, is tile (i, jj) of the square of pairs. -/
theorem rowOf_eq (i : Fin 2) (jj : Fin 8) (h : 8 * i.val + jj.val < cfg0.N) (p : Fin 2048) :
    rowOf ⟨8 * i.val + jj.val, h⟩ p = (finProdFinEquiv (i, p) : Fin (2 * 2048)) := by
  apply Fin.ext
  have := jj.isLt
  show (8 * i.val + jj.val) / 8 * 2048 + p.val = p.val + 2048 * i.val
  omega
theorem colOf_eq (i : Fin 2) (jj : Fin 8) (h : 8 * i.val + jj.val < cfg0.N) (q : Fin 512) :
    colOf ⟨8 * i.val + jj.val, h⟩ q = (finProdFinEquiv (jj, q) : Fin (8 * 512)) := by
  apply Fin.ext
  have := jj.isLt
  show (8 * i.val + jj.val) % 8 * 512 + q.val = q.val + 512 * jj.val
  omega

/-- The two entries the kernel writes add up to the sum over ALL pairs of the contributions. -/
theorem total_eq (c : Dev nD) :
    Acc.G2 m c (ix3 (0 : Fin 2) (0 : Fin 1) (0 : Fin 1)) + Acc.G2 m c (ix3 (1 : Fin 2) (0 : Fin 1) (0 : Fin 1))
      = pairSum (simBefore (A m c) (B m c)) := by
  have hN : cfg0.N = 16 := N_0
  rw [G2_row, G2_row, Ideal.ofBits_zero_f32, zero_add, zero_add, ← Fin.sum_univ_two (fun i : Fin 2 => ∑ jj : Fin 8, Tn m c (8 * i.val + jj.val))]
  unfold pairSum
  rw [sum_fin_tile 2 2048 (fun r : Fin 4096 => ∑ s : Fin 4096, entry (diagBit r.val s.val) (simBefore (A m c) (B m c) r s))]
  refine Finset.sum_congr rfl fun i _ => ?_
  have hi := i.isLt
  have hrow : ∀ p : Fin 2048, (∑ s : Fin 4096, entry (diagBit (finProdFinEquiv (i, p) : Fin (2 * 2048)).val s.val)
        (simBefore (A m c) (B m c) (finProdFinEquiv (i, p) : Fin (2 * 2048)) s))
      = ∑ jj : Fin 8, ∑ q : Fin 512, contrib m c (finProdFinEquiv (i, p) : Fin (2 * 2048)) (finProdFinEquiv (jj, q) : Fin (8 * 512)) :=
    fun p => sum_fin_tile 8 512 (fun s : Fin 4096 => entry (diagBit (finProdFinEquiv (i, p) : Fin (2 * 2048)).val s.val)
        (simBefore (A m c) (B m c) (finProdFinEquiv (i, p) : Fin (2 * 2048)) s))
  refine Eq.trans ?_ (Finset.sum_congr rfl fun p _ => (hrow p).symm)
  rw [Finset.sum_comm]
  refine Finset.sum_congr rfl fun jj _ => ?_
  have hjj := jj.isLt
  have h : 8 * i.val + jj.val < cfg0.N := by omega
  unfold Tn
  rw [dif_pos h, T_eq]
  refine Finset.sum_congr rfl fun p _ => Finset.sum_congr rfl fun q _ => ?_
  rw [rowOf_eq i jj h p, colOf_eq i jj h q]

/-- With every entry of both arguments real, the same total with the similarity normalized after the inner product. -/
theorem total_after (c : Dev nD) (ha : ∀ i, A m c i ≠ ⊤ ∧ A m c i ≠ ⊥) (hb : ∀ i, B m c i ≠ ⊤ ∧ B m c i ≠ ⊥) :
    Acc.G2 m c (ix3 (0 : Fin 2) (0 : Fin 1) (0 : Fin 1)) + Acc.G2 m c (ix3 (1 : Fin 2) (0 : Fin 1) (0 : Fin 1))
      = pairSum (simAfter (A m c) (B m c)) := by
  rw [total_eq]
  unfold pairSum
  exact Finset.sum_congr rfl fun r _ => Finset.sum_congr rfl fun s _ => by
    rw [simBefore_eq_simAfter (A m c) (B m c) ha hb r s]

/-- The idealized kernel's run, read: for arguments whose entries are all real, every weakly fair execution ends with
    the result at the positive-pair loss plus the negative-pair loss of the similarity matrix normalized after the inner
    product, and the arguments unchanged. -/
theorem run (ρ : Dev nD → PrngReg)
    (hfin : ∀ c : Dev nD, (∀ i, A m c i ≠ ⊤ ∧ A m c i ≠ ⊥) ∧ (∀ i, B m c i ≠ ⊤ ∧ B m c i ≠ ⊥)) :
    θ_run defs (onTc (τ := τ) (main (F := Ideal))) ⟨m, fun _ => 0, ρ⟩ (fun r => ∀ c : Dev nD,
      r.2.mem ((c.tc : Thread nD τ).loc main_v26) = (fun _ => lpos (A m c) (B m c) + lneg (pairSum (simAfter (A m c) (B m c))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v26 (Pipeline.mem_restRefs_of main_v26 (by decide) (by decide))).trans
        (funext fun i => (tail_eq m c i).trans (by rw [total_after m c (hfin c).1 (hfin c).2])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Run

end
-- ==== Proof.RefG.lean ====
/-
  The reference's result as the specification's expression.

  The reference computes, on the host: the clamped row norms; the positive-pair loss; the 4096 by 4096 similarity matrix
  as the product of the first matrix with the transposed second, each entry divided by the product of the two rows'
  norms; that matrix times one minus the identity; the margin, the clip and the square; the mean. Read one operation at
  a time (the generated reading lemmas) this is the positive-pair loss plus the negative-pair loss of the similarity
  matrix normalized AFTER the inner product, the identity mask read as a selection of zero on the diagonal.
-/
import proofs.«153321_j82892868813397_2_alg».proof.Proof.Gen.ReferenceIdeal.Read
import proofs.«153321_j82892868813397_2_alg».proof.Proof.SpecLoss
import proofs.«153321_j82892868813397_2_alg».proof.Proof.LibIdx
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem

namespace Cert.ReferenceIdeal.RefValue
open Cert.ReferenceIdeal Cert.ReferenceIdeal.Read

open Idealize.ShloMosaic.ValueIdx Cert.Spec
open scoped BigOperators

/-! The reading lemmas' composed index maps, at indices built from coordinates. -/
theorem e_call0 (r : Fin 4096) (k : Fin 1024) : idx_main_call0_v1 (ix1 r) k = ix2 r k := funext fun a => Fin.ext (by match a with | ⟨0, _⟩ => rfl | ⟨1, _⟩ => rfl)
theorem e_call1 (r : Fin 4096) (k : Fin 1024) : idx_main_call1_v1 (ix1 r) k = ix2 r k := funext fun a => Fin.ext (by match a with | ⟨0, _⟩ => rfl | ⟨1, _⟩ => rfl)
theorem e_v7 (r : Fin 4096) (k : Fin 1024) : idx_main_v7 (ix1 r) k = ix2 r k := funext fun a => Fin.ext (by match a with | ⟨0, _⟩ => rfl | ⟨1, _⟩ => rfl)
theorem e_l11 (r s : Fin 4096) (k : Fin 1024) : lidx_main_v11 (ix2 r s) k = ix2 r k := funext fun a => Fin.ext (by match a with | ⟨0, _⟩ => rfl | ⟨1, _⟩ => rfl)
theorem e_r11 (r s : Fin 4096) (k : Fin 1024) : idx_main_v10 (ridx_main_v11 (ix2 r s) k) = ix2 s k := funext fun a => Fin.ext (by match a with | ⟨0, _⟩ => rfl | ⟨1, _⟩ => rfl)
theorem e_12 (r s : Fin 4096) : idx_main_v12 (idx_main_v14 (ix2 r s)) = ix1 r :=
  funext fun a => Fin.ext (by match a with | ⟨0, _⟩ => rfl)
theorem e_13 (r s : Fin 4096) : idx_main_v13 (idx_main_v15 (ix2 r s)) = ix1 s :=
  funext fun a => Fin.ext (by match a with | ⟨0, _⟩ => rfl)

/-- The reference's clamped norms are the specification's. -/
theorem nrm0 (x0 : Mat) (r : Fin 4096) : val_main_v2 (F := Ideal) x0 (ix1 r) = nrm x0 r := by
  rw [val_main_v2_apply, val_main_v0_apply, val_main_call0_v1_apply, val_main_v1_apply, val_main_cst_apply, val_main_call0_cst_apply]
  simp only [val_main_call0_v0_apply, e_call0]
  rfl
theorem nrm1 (x1 : Mat) (r : Fin 4096) : val_main_v5 (F := Ideal) x1 (ix1 r) = nrm x1 r := by
  rw [val_main_v5_apply, val_main_v3_apply, val_main_call1_v1_apply, val_main_v4_apply, val_main_cst_0_apply, val_main_call1_cst_apply]
  simp only [val_main_call1_v0_apply, e_call1]
  rfl

/-- One minus the paired rows' cosine similarity. -/
theorem gap_eq (x0 x1 : Mat) (r : Fin 4096) : val_main_v28 (F := Ideal) x0 x1 (ix1 r) = gap x0 x1 r := by
  rw [val_main_v28_apply, val_main_v27_apply, val_main_cst_3_apply, val_main_v9_apply, val_main_v7_apply, val_main_v8_apply,
    nrm0, nrm1, val_main_cst_1_apply]
  simp only [val_main_v6_apply, e_v7]
  rfl

/-- The reference's positive-pair loss. -/
theorem lpos_eq (x0 x1 : Mat) (i : S_.Idx) : val_main_v31 (F := Ideal) x0 x1 i = lpos x0 x1 := by
  rw [val_main_v31_apply, val_main_v30_apply, val_main_cst_5_apply, val_main_cst_4_apply, Cert.LibIdx.sum_idx1]
  simp only [val_main_v29_apply, gap_eq]
  rfl

/-- The reference's identity-matrix test at (r, s) is the diagonal indicator. -/
theorem bit_eq (r s : Fin 4096) : val_main_v22 (F := Ideal) (ix2 r s) = diagBit r.val s.val := by
  rw [val_main_v22_apply, val_main_v21_apply, val_main_v18_apply, val_main_v20_apply, val_main_c_apply, val_main_v19_apply]
  show IntOp.cmpi .eq (IntOp.addi (BitVec.ofNat 32 r.val) 0#32) (BitVec.ofNat 32 s.val) = _
  rw [show IntOp.addi (BitVec.ofNat 32 r.val) 0#32 = BitVec.ofNat 32 r.val from BitVec.add_zero _]
  exact cmpi_eq_ofNat _ _ (by have := r.isLt; omega) (by have := s.isLt; omega)

/-- The reference's contribution of the pair (r, s). -/
theorem entry_eq (x0 x1 : Mat) (r s : Fin 4096) :
    val_main_v36 (F := Ideal) x0 x1 (ix2 r s) = entry (diagBit r.val s.val) (simAfter x0 x1 r s) := by
  rw [val_main_v36_apply, val_main_v35_apply, val_main_v33_apply, val_main_v34_apply, val_main_cst_7_apply, val_main_v32_apply,
    val_main_cst_6_apply, val_main_v26_apply, val_main_v25_apply, val_main_v24_apply, val_main_cst_2_apply, val_main_v23_apply,
    bit_eq, val_main_v17_apply, val_main_v11_apply, val_main_v16_apply, val_main_v14_apply, val_main_v15_apply,
    val_main_v12_apply, val_main_v13_apply, e_12, e_13, nrm0, nrm1]
  simp only [val_main_v10_apply, e_l11, e_r11]
  unfold entry simAfter
  rw [← masked_eq]
  rfl

/-- The reference's result: the positive-pair loss plus the negative-pair loss of the similarity matrix normalized after
    the inner product. -/
theorem ref_eq (x0 x1 : Mat) (i : S_.Idx) :
    val_main_v39 (F := Ideal) x0 x1 i = lpos x0 x1 + lneg (pairSum (simAfter x0 x1)) := by
  rw [val_main_v39_apply, lpos_eq, val_main_v38_apply, val_main_v37_apply, val_main_cst_9_apply, val_main_cst_8_apply, sum_idx2]
  simp only [entry_eq]
  rfl

end Cert.ReferenceIdeal.RefValue

end
-- ==== Proof.Finite.lean ====
/-
  Finite inputs: what the precondition gives.

  The precondition says that every entry of both argument arrays has absolute value below plus infinity. On the extended
  reals that is exactly: every entry is a real number (neither infinity). This is what the law between the two forms of
  the similarity needs.
-/
import proofs.«153321_j82892868813397_2_alg».proof.Pre_finite_inputs
import proofs.«153321_j82892868813397_2_alg».proof.Proof.Gen.Pre_finite_inputs
import Idealize.ShloMosaic.Lib.ReduceAll
import Idealize.ShloMosaic.Lib.Affine
import Idealize.ShloMosaic.Lib.Pipeline.Value
import Idealize.ShloMosaic.Lib.ValueIdx
import Idealize.ShloMosaic.PureOps.Ideal.Laws

noncomputable section

namespace Cert.Finite

open Idealize.ShloMosaic Cert.Pre_finite_inputs

instance subS : Subsingleton S_.Idx := ⟨fun a b => funext fun d => d.elim0⟩

/-- An extended real whose absolute value is below plus infinity is a real number. -/
theorem real_of_abs_lt (x : EReal) (h : Ideal.cmp .olt (max x (-x)) (Ideal.ofBits .f32 0x7F800000#32) = 1#1) :
    x ≠ ⊤ ∧ x ≠ ⊥ := by
  have hinf : Ideal.ofBits .f32 0x7F800000#32 = ⊤ := by simp [Ideal.ofBits, Ideal.ieee]
  rw [hinf] at h
  change BitVec.ofBool (decide (max x (-x) < ⊤)) = 1#1 at h
  have hb : decide (max x (-x) < ⊤) = true := by
    by_contra hc
    rw [Bool.not_eq_true] at hc
    rw [hc] at h
    exact absurd h (by decide)
  have h' : max x (-x) < ⊤ := of_decide_eq_true hb
  constructor
  · rintro rfl; simp at h'
  · rintro rfl; simp at h'

/-- The test the precondition applies to one entry. -/
theorem elem (a : FVec Ideal S4096x1024 .f32) (i : S4096x1024.Idx)
    (h : cmpf .olt (Host.absf a) (broadcastInDim S4096x1024 (![] : Fin 0 → Fin S4096x1024.rank) Facts.bcast_S_S4096x1024 (constant (F := Ideal) S_ .f32 0x7F800000#32)) i = 1#1) :
    a i ≠ ⊤ ∧ a i ≠ ⊥ := by
  refine real_of_abs_lt _ ?_
  rw [← h]
  show _ = Ideal.cmp .olt (max (a i) (-(a i))) (broadcastInDim (s := S_) S4096x1024 ![] Facts.bcast_S_S4096x1024 _ i)
  rw [broadcastInDim_apply _ Facts.bcast_S_S4096x1024 _ i ValueIdx.ix0 (fun a => a.elim0)]
  rfl

/-- Under the precondition every entry of both arguments is a real number. -/
theorem finite_of_pre (a b : FVec Ideal S4096x1024 .f32) (h : fn (F := Ideal) a b = fun _ => 1#1) :
    (∀ i, a i ≠ ⊤ ∧ a i ≠ ⊥) ∧ (∀ i, b i ≠ ⊤ ∧ b i ≠ ⊥) := by
  have h0 := congrFun h ValueIdx.ix0
  dsimp only [fn] at h0
  obtain ⟨h1, h2⟩ := IntOp.andi_eq_one.mp h0
  exact ⟨fun i => elem a i (Host.reduce_andi_all _ _ _ _ _ h1 i), fun i => elem b i (Host.reduce_andi_all _ _ _ _ _ h2 i)⟩

end Cert.Finite

end
-- ==== Proof.lean ====
/-
  A contrastive loss over two 4096 by 1024 matrices img and txt, computed two ways, and why the two agree on the
  extended reals when every input entry is finite.

  Both programs compute
      mean over rows r of (1 - cos(img_r, txt_r))^2
    + mean over all pairs (r, s) of max(S(r, s) - 1/2, 0)^2,
  where cos divides the inner product of the two rows by the product of their clamped norms (each norm is the larger of
  the Euclidean norm and a small positive constant), and S is the cosine-similarity matrix with its diagonal set to zero.

  The reference forms the whole 4096 by 4096 matrix of inner products, divides entry (r, s) by the product of the two
  clamped norms, and multiplies by one minus the identity matrix. The kernel's host code first divides every row of both
  matrices by its clamped norm; the kernel then walks a 2 by 8 grid of 2048 by 512 tiles, and for each tile takes the
  inner products of the normalized rows, selects zero where the global row and column indices coincide, applies the
  margin, the clip and the square, and adds the tile's total into a one-entry accumulator that restarts at the beginning
  of each grid row and is written out at its end; the host adds the two row totals and divides by the number of pairs.

  Three facts join the two:
    * (x / c) * (y / d) summed over a row equals (sum of x * y) / (c * d) when x, y are real and c, d are nonzero reals.
      This is distributivity, which fails at the infinities, so it is here that finiteness of the inputs is used; the
      clamped norm of a row of reals is a positive real because the clamp is.
    * z * (1 - [r = s]) is z off the diagonal and 0 on it, which is the kernel's selection.
    * sums over a commutative monoid may be regrouped: the 16 tiles partition the square of pairs.
  The positive-pair part is the same host computation in both programs. The literals (the clamp, 1/2, 4096, 2^24) are the
  same words on both sides and are only evaluated where the argument needs their value (zero, one, the clamp's sign).

  The three frame claims are the generated frame theorems (the reference's from its generated run); the idealization
  rewrote nothing, so its claim is trivial.
-/
import proofs.«153321_j82892868813397_2_alg».proof.Defs
import proofs.«153321_j82892868813397_2_alg».proof.Proof.Gen.Kernel
import proofs.«153321_j82892868813397_2_alg».proof.Proof.Gen.Kernel.Skeleton
import proofs.«153321_j82892868813397_2_alg».proof.Proof.Gen.Kernel.Launch
import proofs.«153321_j82892868813397_2_alg».proof.Proof.Gen.Kernel.Points
import proofs.«153321_j82892868813397_2_alg».proof.Proof.Gen.Kernel.Frame
import proofs.«153321_j82892868813397_2_alg».proof.Proof.Gen.KernelIdeal
import proofs.«153321_j82892868813397_2_alg».proof.Proof.Gen.KernelIdeal.Skeleton
import proofs.«153321_j82892868813397_2_alg».proof.Proof.Gen.KernelIdeal.Launch
import proofs.«153321_j82892868813397_2_alg».proof.Proof.Gen.KernelIdeal.Points
import proofs.«153321_j82892868813397_2_alg».proof.Proof.Gen.KernelIdeal.Frame
import proofs.«153321_j82892868813397_2_alg».proof.Proof.Gen.ReferenceIdeal
import proofs.«153321_j82892868813397_2_alg».proof.Proof.Gen.ReferenceIdeal.Run
import proofs.«153321_j82892868813397_2_alg».proof.Proof.Gen.ReferenceIdeal.Read
import proofs.«153321_j82892868813397_2_alg».proof.Proof.Gen.Pre_finite_inputs
import proofs.«153321_j82892868813397_2_alg».proof.Proof.KRun
import proofs.«153321_j82892868813397_2_alg».proof.Proof.RefG
import proofs.«153321_j82892868813397_2_alg».proof.Proof.Finite
import Idealize.ShloMosaic.Adequacy
import Idealize.ShloMosaic.Init

noncomputable section

namespace Cert.Proof

open Idealize.ShloMosaic Idealize.SL.Sem

/-- The word-level kernel and its idealization run, fault-free, leaving their arguments unchanged. -/
theorem frame_k : Cert.frame_Kernel := fun m ρ _ => Cert.Kernel.Gen.frame m ρ
theorem frame_ki : Cert.frame_KernelIdeal := fun m ρ _ => Cert.KernelIdeal.Gen.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, with every argument entry finite, both idealized programs end with the same
    loss: the kernel's run ends at the loss with the similarity normalized after the inner product (the regrouping and
    the law for real entries are inside its run's reading), and the reference's result is that expression outright. -/
theorem algebraic : Cert.algebraic_KernelIdeal_ReferenceIdeal := by
  intro m ρ m' ρ' hpre hagree
  have hfin : ∀ c : Dev Cert.KernelIdeal.nD,
      (∀ i, Cert.KernelIdeal.Run.A m c i ≠ ⊤ ∧ Cert.KernelIdeal.Run.A m c i ≠ ⊥)
      ∧ (∀ i, Cert.KernelIdeal.Run.B m c i ≠ ⊤ ∧ Cert.KernelIdeal.Run.B m c i ≠ ⊥) :=
    fun c => Cert.Finite.finite_of_pre _ _ (hpre c)
  refine ⟨fun c => fun _ => Cert.Spec.lpos (Cert.KernelIdeal.Run.A m c) (Cert.KernelIdeal.Run.B m c)
      + Cert.Spec.lneg (Cert.Spec.pairSum (Cert.Spec.simAfter (Cert.KernelIdeal.Run.A m c) (Cert.KernelIdeal.Run.B m c))),
    Cert.KernelIdeal.Run.run m ρ hfin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, (hagree c).1, (hagree c).2]
  funext i
  exact Cert.ReferenceIdeal.RefValue.ref_eq _ _ i

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
